-- ==== Defs.lean ====
def Pre_Kernel [hPre_input_domain : Cert.Pre_input_domain.Facts] (m : (ℓ : Loc Cert.Kernel.nD Cert.Kernel.τ Cert.Kernel.sig) → Buf (Elt Bits) ℓ) : Prop :=
  ∀ c : Dev Cert.Kernel.nD,
    (Cert.Pre_input_domain.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_input_domain : Cert.Pre_input_domain.Facts] (m : (ℓ : Loc Cert.KernelIdeal.nD Cert.KernelIdeal.τ Cert.KernelIdeal.sig) → Buf (Elt Ideal) ℓ) : Prop :=
  ∀ c : Dev Cert.KernelIdeal.nD,
    (Cert.Pre_input_domain.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_input_domain : Cert.Pre_input_domain.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_input_domain.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_input_domain : Cert.Pre_input_domain.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_input_domain : Cert.Pre_input_domain.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_input_domain : Cert.Pre_input_domain.Facts),
    frame_Kernel (hKernel := hKernel) (hPre_input_domain := hPre_input_domain)
    ∧ frame_KernelIdeal (hKernelIdeal := hKernelIdeal) (hPre_input_domain := hPre_input_domain)
    ∧ frame_ReferenceIdeal (hReferenceIdeal := hReferenceIdeal) (hPre_input_domain := hPre_input_domain)
    ∧ preserves_Kernel_KernelIdeal
    ∧ algebraic_KernelIdeal_ReferenceIdeal (hKernelIdeal := hKernelIdeal) (hReferenceIdeal := hReferenceIdeal) (hPre_input_domain := hPre_input_domain)
-- ==== Pre_input_domain.lean ====
abbrev S16384 : Shape := ⟨1, ![16384]⟩
abbrev S100000x128 : Shape := ⟨2, ![100000, 128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S16384 : S_.BroadcastsInDim S16384 (![] : Fin 0 → Fin S16384.rank)
  reducesTo_S16384_S_d0 : S16384.ReducesTo [0] S_

variable [Facts]

def fn {F : FTy → Type} [FloatOps F] (main_arg0 : IVec S16384 32) (main_arg1 : FVec F S100000x128 .f32) : IVec S_ 1 :=
  let main_v0 : FVec F S100000x128 .f32 := Host.absf main_arg1
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_c_0 : IVec S_ 32 := constantI S_ 32 0#32
  let main_v4 : IVec S16384 32 := broadcastInDim S16384 ![] bcast_S_S16384 main_c_0
  let main_v5 : IVec S16384 1 := cmpi .sge main_arg0 main_v4
  let main_c_1 : IVec S_ 32 := constantI S_ 32 99999#32
  let main_v6 : IVec S16384 32 := broadcastInDim S16384 ![] bcast_S_S16384 main_c_1
  let main_v7 : IVec S16384 1 := cmpi .sle main_arg0 main_v6
  let main_v8 : IVec S16384 1 := andi main_v5 main_v7
  let main_c_2 : IVec S_ 1 := constantI S_ 1 1#1
  let main_v9 : IVec S_ 1 := (fun x v => Host.reduce IntOp.andi x v reducesTo_S16384_S_d0 h_S_) main_v8 main_c_2
  let main_v10 : IVec S_ 1 := andi main_v3 main_v9
  main_v10
-- ==== Kernel.lean ====
abbrev S16384 : Shape := ⟨1, ![16384]⟩
abbrev S100000x128 : Shape := ⟨2, ![100000, 128]⟩
abbrev S16384x128 : Shape := ⟨2, ![16384, 128]⟩
abbrev S512 : Shape := ⟨1, ![512]⟩
abbrev S512x128 : Shape := ⟨2, ![512, 128]⟩
abbrev S_ : Shape := ⟨0, ![]⟩

abbrev nBuf : Table → Nat
  | .hbm => 3
  | .local .scVector .vmem => 2
  | _ => 0

abbrev bufTy : (tb : Table) → Fin (nBuf tb) → BufTy
  | .hbm, ⟨0, _⟩ => ⟨S16384, .i32⟩
  | .hbm, ⟨1, _⟩ => ⟨S100000x128, .f32⟩
  | .hbm, ⟨2, _⟩ => ⟨S16384x128, .f32⟩
  | .local .scVector .vmem, ⟨0, _⟩ => ⟨S512, .i32⟩
  | .local .scVector .vmem, ⟨1, _⟩ => ⟨S512x128, .f32⟩
  | _, _ => ⟨S16384, .i32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 3 → Bool
  | ⟨0, _⟩ => false
  | ⟨1, _⟩ => false
  | ⟨2, _⟩ => false
  | _ => false

abbrev sig : RefSig :=
  ofTables nBuf rfl bufTy 4 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_arg0_scv : Ref sig .scVector := ⟨.hbm, 0, rfl⟩
abbrev main_arg1_scv : Ref sig .scVector := ⟨.hbm, 1, rfl⟩
abbrev main_v0_scv : Ref sig .scVector := ⟨.hbm, 2, rfl⟩
abbrev cc0_scratch0 : Ref sig .scVector := ⟨.vmem, 0, rfl⟩
abbrev cc0_scratch1 : Ref sig .scVector := ⟨.vmem, 1, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  ![v2.toNat]
def k0_off2 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let c0_i32_3_r1 : BitVec 32 := 0#32
  ![v2.toNat, 0]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))

class Facts₀ : Prop where
  inb_S100000x128_S100000x128_0_0 : ∀ a, (![0, 0] : Fin 2 → Nat) a + S100000x128.size a ≤ S100000x128.size a
  gathers_S100000x128_S512x128 : S100000x128.Gathers 0 S512x128
  hcc0_scratch2 : 0 + S_.numel ≤ 3
  hcc0_scoped0 : 1 + S_.numel ≤ 3
  hcc0_scoped1 : 2 + S_.numel ≤ 3
  hscKind : ∀ q, scKind q ≠ .tc
  hscCore : ∀ q, scNCore q ≤ τ.nSC
  hscSub : ∀ q, scNSub q ≤ τ.nSub
  hcore0 : grid0.bound 0 ≤ τ.nSC
  hsub0 : grid0.bound 1 ≤ τ.nSub
  k0_off1_inb : ∀ i : grid0.Coords, ∀ a, (k0_off1 i) a + S512.size a ≤ S16384.size a
  k0_off2_inb : ∀ i : grid0.Coords, ∀ a, (k0_off2 i) a + S512x128.size a ≤ S16384x128.size a

variable [Facts₀]

abbrev cc0_scratch2 : DmaSems sig S_ := SemArray.consecutive 0 S_ hcc0_scratch2
abbrev cc0_scoped0 : DmaSems sig S_ := SemArray.consecutive 1 S_ hcc0_scoped0
abbrev cc0_scoped1 : DmaSems sig S_ := SemArray.consecutive 2 S_ hcc0_scoped1

class Facts : Prop extends Facts₀ where

variable [Facts]
-- ==== ReferenceIdeal.lean ====
abbrev S16384 : Shape := ⟨1, ![16384]⟩
abbrev S100000x128 : Shape := ⟨2, ![100000, 128]⟩
abbrev S_ : Shape := ⟨0, ![]⟩
abbrev S16384x1 : Shape := ⟨2, ![16384, 1]⟩
abbrev S1 : Shape := ⟨1, ![1]⟩
abbrev S1x1 : Shape := ⟨2, ![1, 1]⟩
abbrev S16384x128 : Shape := ⟨2, ![16384, 128]⟩

abbrev nBuf : Space → Nat
  | .hbm => 25
  | .vmem => 0
  | .smem => 0
  | _ => 0

abbrev bufTy : (tb : Table) → Fin (tcTables nBuf tb) → BufTy
  | .hbm, ⟨0, _⟩ => ⟨S16384, .i32⟩
  | .hbm, ⟨1, _⟩ => ⟨S100000x128, .f32⟩
  | .hbm, ⟨2, _⟩ => ⟨S_, .i32⟩
  | .hbm, ⟨3, _⟩ => ⟨S16384, .i32⟩
  | .hbm, ⟨4, _⟩ => ⟨S16384, .i1⟩
  | .hbm, ⟨5, _⟩ => ⟨S_, .i32⟩
  | .hbm, ⟨6, _⟩ => ⟨S16384, .i32⟩
  | .hbm, ⟨7, _⟩ => ⟨S16384, .i32⟩
  | .hbm, ⟨8, _⟩ => ⟨S16384, .i32⟩
  | .hbm, ⟨9, _⟩ => ⟨S16384x1, .i32⟩
  | .hbm, ⟨10, _⟩ => ⟨S1, .i32⟩
  | .hbm, ⟨11, _⟩ => ⟨S_, .i32⟩
  | .hbm, ⟨12, _⟩ => ⟨S16384x1, .i32⟩
  | .hbm, ⟨13, _⟩ => ⟨S16384x1, .i1⟩
  | .hbm, ⟨14, _⟩ => ⟨S1x1, .i32⟩
  | .hbm, ⟨15, _⟩ => ⟨S16384x1, .i32⟩
  | .hbm, ⟨16, _⟩ => ⟨S16384x1, .i1⟩
  | .hbm, ⟨17, _⟩ => ⟨S16384x1, .i1⟩
  | .hbm, ⟨18, _⟩ => ⟨S_, .i1⟩
  | .hbm, ⟨19, _⟩ => ⟨S16384, .i1⟩
  | .hbm, ⟨20, _⟩ => ⟨S16384x128, .f32⟩
  | .hbm, ⟨21, _⟩ => ⟨S16384x128, .i1⟩
  | .hbm, ⟨22, _⟩ => ⟨S_, .f32⟩
  | .hbm, ⟨23, _⟩ => ⟨S16384x128, .f32⟩
  | .hbm, ⟨24, _⟩ => ⟨S16384x128, .f32⟩
  | _, _ => ⟨S16384, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_c : Ref sig .tc := ⟨.hbm, 2, rfl⟩
abbrev main_call0_v0 : Ref sig .tc := ⟨.hbm, 3, rfl⟩
abbrev main_call0_v1 : Ref sig .tc := ⟨.hbm, 4, rfl⟩
abbrev main_call0_c_0 : Ref sig .tc := ⟨.hbm, 5, rfl⟩
abbrev main_call0_v2 : Ref sig .tc := ⟨.hbm, 6, rfl⟩
abbrev main_call0_v3 : Ref sig .tc := ⟨.hbm, 7, rfl⟩
abbrev main_call0_v4 : Ref sig .tc := ⟨.hbm, 8, rfl⟩
abbrev main_call0_v5 : Ref sig .tc := ⟨.hbm, 9, rfl⟩
abbrev main_call0_c_1 : Ref sig .tc := ⟨.hbm, 10, rfl⟩
abbrev main_call0_c_2 : Ref sig .tc := ⟨.hbm, 11, rfl⟩
abbrev main_call0_v6 : Ref sig .tc := ⟨.hbm, 12, rfl⟩
abbrev main_call0_v7 : Ref sig .tc := ⟨.hbm, 13, rfl⟩
abbrev main_call0_v8 : Ref sig .tc := ⟨.hbm, 14, rfl⟩
abbrev main_call0_v9 : Ref sig .tc := ⟨.hbm, 15, rfl⟩
abbrev main_call0_v10 : Ref sig .tc := ⟨.hbm, 16, rfl⟩
abbrev main_call0_v11 : Ref sig .tc := ⟨.hbm, 17, rfl⟩
abbrev main_call0_c_3 : Ref sig .tc := ⟨.hbm, 18, rfl⟩
abbrev main_call0_v12 : Ref sig .tc := ⟨.hbm, 19, rfl⟩
abbrev main_call0_v13 : Ref sig .tc := ⟨.hbm, 20, rfl⟩
abbrev main_call0_v14 : Ref sig .tc := ⟨.hbm, 21, rfl⟩
abbrev main_call0_cst : Ref sig .tc := ⟨.hbm, 22, rfl⟩
abbrev main_call0_v15 : Ref sig .tc := ⟨.hbm, 23, rfl⟩
abbrev main_v0 : Ref sig .tc := ⟨.hbm, 24, rfl⟩

abbrev nD : Nat := 1
abbrev τ : Topo := Topo.v7x

variable {F : FTy → Type} [FloatOps F]

class Facts₀ : Prop where
  bcast_S_S16384 : S_.BroadcastsInDim S16384 (![] : Fin 0 → Fin S16384.rank)
  bcast_S16384_S16384x1_0 : S16384.BroadcastsInDim S16384x1 (![0] : Fin 1 → Fin S16384x1.rank)
  bcast_S_S16384x1 : S_.BroadcastsInDim S16384x1 (![] : Fin 0 → Fin S16384x1.rank)
  bcast_S1_S1x1_1 : S1.BroadcastsInDim S1x1 (![1] : Fin 1 → Fin S1x1.rank)
  bcast_S1x1_S16384x1_0_1 : S1x1.BroadcastsInDim S16384x1 (![0, 1] : Fin 2 → Fin S16384x1.rank)
  reducesTo_S16384x1_S16384_d1 : S16384x1.ReducesTo [1] S16384
  h_S_ : 0 < S_.numel
  bcast_S16384_S16384x128_0 : S16384.BroadcastsInDim S16384x128 (![0] : Fin 1 → Fin S16384x128.rank)
  bcast_S_S16384x128 : S_.BroadcastsInDim S16384x128 (![] : Fin 0 → Fin S16384x128.rank)
  gather_S100000x128_S16384x1_S16384x128_1_0_n_n_0_1_1128_wf : GatherDims.WF S100000x128 S16384x1 S16384x128 [1] [0] [] [0] [] 1 ![1, 128]

variable [Facts₀]

def gather_S100000x128_S16384x1_S16384x128_1_0_n_n_0_1_1128 : GatherDims S100000x128 S16384x1 S16384x128 where
  offsetDims := [1]
  collapsedSliceDims := [0]
  operandBatchingDims := []
  startIndicesBatchingDims := []
  startIndexMap := [0]
  indexVectorDim := 1
  sliceSizes := ![1, 128]
  wf := gather_S100000x128_S16384x1_S16384x128_1_0_n_n_0_1_1128_wf

class Facts : Prop extends Facts₀ where

variable [Facts]
-- ==== Proof.IdealSetup.lean ====
/-
  Shared definitions for the row-gather kernel's run: the launch configuration, the ghost state (the handshakes'
  rounds beside the transfers' counters), the three arrays as the tiles address them, the 32 row blocks of the
  result (block 2·s + c belongs to tile s of SparseCore c), the read shares of the index list and of the table, what
  the handshakes carry, and the function the result is claimed to be: row j of the result is row idx[j] of the table.
-/
import proofs.«203850_g42984032698415_cont_8to1_b_851_13_alg».proof.Defs
import Idealize.ShloMosaic.Lib.SparseCore.Launch
import Idealize.ShloMosaic.Lib.SparseCore.Ops
import Idealize.ShloMosaic.Lib.SparseCore.Stream
import Idealize.ShloMosaic.Lib.StableHlo.Run
import Idealize.ShloMosaic.Lib.Pipeline.Kit
import Idealize.ShloMosaic.Lib.Tactic
import Idealize.ShloMosaic.Lib.ValueIdx
import proofs.«203850_g42984032698415_cont_8to1_b_851_13_alg».proof.Proof.Gen.KernelIdeal
import proofs.«203850_g42984032698415_cont_8to1_b_851_13_alg».proof.Proof.Gen.KernelIdeal.Skeleton

noncomputable section

namespace Cert.Proof.IdealGather

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds, the transfers' counters -/

abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

/-! ## The launch memory and the arrays -/

variable (m : (ℓ : Loc nD τ sig) → Buf (Elt F) ℓ) (ρ : Dev nD → PrngReg)

/-- The index list, the table and the result, as locations of device `d`. -/
abbrev iLoc (d : Dev nD) : Loc nD τ sig := (SparseCore.T d).loc main_arg0
abbrev xLoc (d : Dev nD) : Loc nD τ sig := (SparseCore.T d).loc main_arg1
abbrev oLoc (d : Dev nD) : Loc nD τ sig := (SparseCore.T d).loc main_v0

/-- Every index names a row of the table. -/
def PreOK : Prop := ∀ (d : Dev nD) (j : S16384.Idx), (m (iLoc d) j).toNat < 100000

/-- The claimed result: entry (j, k) is the table's entry (idx j, k). -/
def gathered (hpre : PreOK m) (d : Dev nD) : Buf (Elt F) (oLoc d) :=
  fun (j : S16384x128.Idx) => m (xLoc d) (ValueIdx.ix2 (⟨(m (iLoc d) (ValueIdx.ix1 (j 0))).toNat, hpre d _⟩ : Fin 100000) (j 1))

/-! ## The result's 32 row blocks -/

/-- Block `2·i + c` of 512 rows: the rows tile `i` of SparseCore `c` writes. -/
def chunkSet (c i : ℕ) : Finset S16384x128.Idx := Finset.univ.filter fun j => (j 0).val / 512 = 2 * i + c

omit m ρ in
theorem chunks_disjoint : ∀ p ∈ (Finset.univ : Finset (Fin 2 × Fin 16)), ∀ p' ∈ (Finset.univ : Finset (Fin 2 × Fin 16)), p ≠ p' →
    Disjoint (chunkSet p.1.val p.2.val) (chunkSet p'.1.val p'.2.val) := by
  rintro ⟨c, i⟩ - ⟨c', i'⟩ - hne
  refine Finset.disjoint_left.mpr fun j h h' => hne ?_
  have e := (Finset.mem_filter.mp h).2
  have e' := (Finset.mem_filter.mp h').2
  have hc := c.isLt; have hc' := c'.isLt
  exact Prod.ext (Fin.ext (by omega)) (Fin.ext (by omega))

omit m ρ in
theorem chunks_cover : (Finset.univ : Finset (Fin 2 × Fin 16)).biUnion (fun p => chunkSet p.1.val p.2.val) = Finset.univ := by
  ext j
  simp only [Finset.mem_biUnion, Finset.mem_univ, true_and, iff_true]
  have hj : (j 0).val < 16384 := (j 0).isLt
  refine ⟨(⟨(j 0).val / 512 % 2, Nat.mod_lt _ (by decide)⟩, ⟨(j 0).val / 512 / 2, by omega⟩), Finset.mem_filter.mpr ⟨Finset.mem_univ _, ?_⟩⟩
  show (j 0).val / 512 = 2 * ((j 0).val / 512 / 2) + (j 0).val / 512 % 2
  omega

/-! ## Read shares: the full share cut once per SparseCore, then once per tile -/

abbrev coreShare (c : ℕ) : PosShare TreeShare := Transfers.shareTokN fullShare c
abbrev tileShare (c i : ℕ) : PosShare TreeShare := Transfers.shareTokN (coreShare c) i

variable [FloatOps F]

/-! ## What the handshakes carry -/

abbrev iPts (d : Dev nD) : sProp 𝕄 := iLoc d ↦{fullShare} m (iLoc d)
abbrev xPts (d : Dev nD) : sProp 𝕄 := xLoc d ↦{fullShare} m (xLoc d)
abbrev oPts (d : Dev nD) (f : Buf (Elt F) (oLoc d)) : sProp 𝕄 := oLoc d ↦{fullShare} f
abbrev iShPts (d : Dev nD) (q : PosShare TreeShare) : sProp 𝕄 := iLoc d ↦{q} m (iLoc d)
abbrev xShPts (d : Dev nD) (q : PosShare TreeShare) : sProp 𝕄 := xLoc d ↦{q} m (xLoc d)
abbrev oChunkPts (d : Dev nD) (c i : ℕ) (f : Buf (Elt F) (oLoc d)) : sProp 𝕄 := oLoc d ↦[chunkSet c i]{fullShare} f

/-- The call hands SparseCore `c` a read share of the list and of the table and its sixteen blocks of the result;
    each tile a share of the two and its block; back come the same, the blocks at the claimed result. -/
def P (hpre : PreOK m) : (K (F := F)).Pay (nD := nD) (Val := Elt F) (Name := ℕ) (U := UU) where
  st := fun q d c => match q with
    | 0 => iprop(iShPts m d (coreShare c.val) ∗ xShPts m d (coreShare c.val)
        ∗ bigSep Finset.univ fun i : Fin 16 => oChunkPts d c.val i.val (m (oLoc d)))
  dn := fun q d c => match q with
    | 0 => iprop(iShPts m d (coreShare c.val) ∗ xShPts m d (coreShare c.val)
        ∗ bigSep Finset.univ fun i : Fin 16 => oChunkPts d c.val i.val (gathered m hpre d))
  go := fun q d c i => match q with
    | 0 => iprop(iShPts m d (tileShare c.val i.val) ∗ xShPts m d (tileShare c.val i.val) ∗ oChunkPts d c.val i.val (m (oLoc d)))
  td := fun q d c i => match q with
    | 0 => iprop(iShPts m d (tileShare c.val i.val) ∗ xShPts m d (tileShare c.val i.val) ∗ oChunkPts d c.val i.val (gathered m hpre d))
  x := fun _ _ => iprop(emp)

instance P_storable (hpre : PreOK m) : (P (F := F) m hpre).IsStorable where
  st q d c := match q with
    | 0 => (inferInstance : BI.Storable (upEmb : UEmb _ 𝕄) iprop(iShPts m d (coreShare c.val) ∗ xShPts m d (coreShare c.val)
        ∗ bigSep Finset.univ fun i : Fin 16 => oChunkPts d c.val i.val (m (oLoc d))))
  dn q d c := match q with
    | 0 => (inferInstance : BI.Storable (upEmb : UEmb _ 𝕄) iprop(iShPts m d (coreShare c.val) ∗ xShPts m d (coreShare c.val)
        ∗ bigSep Finset.univ fun i : Fin 16 => oChunkPts d c.val i.val (gathered m hpre d)))
  go q d c i := match q with
    | 0 => (inferInstance : BI.Storable (upEmb : UEmb _ 𝕄)
        iprop(iShPts m d (tileShare c.val i.val) ∗ xShPts m d (tileShare c.val i.val) ∗ oChunkPts d c.val i.val (m (oLoc d))))
  td q d c i := match q with
    | 0 => (inferInstance : BI.Storable (upEmb : UEmb _ 𝕄)
        iprop(iShPts m d (tileShare c.val i.val) ∗ xShPts m d (tileShare c.val i.val) ∗ oChunkPts d c.val i.val (gathered m hpre d)))

/-! ## A tile's coordinates and its slices -/

abbrev cV (L : grid0.Coords) : Fin τ.nSC := (L 0).castLE hcore0
abbrev jV (L : grid0.Coords) : Fin τ.nSub := (L 1).castLE hsub0

abbrev iRectK (L : grid0.Coords) : Rect S16384 := Rect.unit (s := S16384) (k0_off1 L) S512.size (k0_off1_inb L)
abbrev oRectK (L : grid0.Coords) : Rect S16384x128 := Rect.unit (s := S16384x128) (k0_off2 L) S512x128.size (k0_off2_inb L)

omit m ρ [FloatOps F] in
/-- The block the tile at `L` writes is block `2·(L 1) + (L 0)`. -/
theorem set_oRectK (L : grid0.Coords) : (oRectK L).set = chunkSet (L 0).val (L 1).val := by
  ext j
  rw [Rect.mem_set_unit, k0_off2_eq]
  simp only [chunkSet, Finset.mem_filter, Finset.mem_univ, true_and, Fin.forall_fin_two]
  have h1 : (j 1).val < 128 := (j 1).isLt
  have hc : (L 0).val < 2 := (L 0).isLt
  have hs : (L 1).val < 16 := (L 1).isLt
  show (1024 * (L 1).val + 512 * (L 0).val ≤ (j 0).val ∧ (j 0).val < 1024 * (L 1).val + 512 * (L 0).val + 512) ∧ (0 ≤ (j 1).val ∧ (j 1).val < 0 + 128) ↔ _
  constructor
  · rintro ⟨⟨h, h'⟩, -⟩; omega
  · intro h; refine ⟨?_, by omega, by omega⟩; omega

end Cert.Proof.IdealGather

end
-- ==== Proof.IdealBody.lean ====
/-
  One tile's task of the row-gather kernel: the tile at grid point (c, s) copies entries [512·(2s+c), 512·(2s+c)+512) of
  the index list into its list scratch, gathers the table rows those entries name into its row scratch, and copies the
  row scratch out to the same 512 rows of the result. Each copy is waited for before the next starts, so the three
  copies never overlap; what the block of the result holds at the end is the table read at the listed rows.
-/
import proofs.«203850_g42984032698415_cont_8to1_b_851_13_alg».proof.Proof.IdealSetup

noncomputable section

namespace Cert.Proof.IdealGather

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ) (ρ : Dev nD → PrngReg)

local notation "iV" => (Memref.whole Cert.KernelIdeal.main_arg0_scv : Memref Cert.KernelIdeal.sig Kind.scVector Space.hbm Cert.KernelIdeal.S16384 EltTy.i32)
local notation "xV" => (Memref.whole Cert.KernelIdeal.main_arg1_scv : Memref Cert.KernelIdeal.sig Kind.scVector Space.hbm Cert.KernelIdeal.S100000x128 EltTy.f32)
local notation "oV" => (Memref.whole Cert.KernelIdeal.main_v0_scv : Memref Cert.KernelIdeal.sig Kind.scVector Space.hbm Cert.KernelIdeal.S16384x128 EltTy.f32)
local notation "sV" => (Memref.whole Cert.KernelIdeal.cc0_scratch0 : Memref Cert.KernelIdeal.sig Kind.scVector Space.vmem Cert.KernelIdeal.S512 EltTy.i32)
local notation "rV" => (Memref.whole Cert.KernelIdeal.cc0_scratch1 : Memref Cert.KernelIdeal.sig Kind.scVector Space.vmem Cert.KernelIdeal.S512x128 EltTy.f32)

variable [FloatOps F]

section Tile

variable (d : Dev nD) (L : grid0.Coords)

/-- The tile's slice of the list and its block of the result, as the kernel slices them. -/
abbrev iChunkK (L : grid0.Coords) : Memref sig .scVector .hbm S512 .i32 := (iV).slice (iRectK L) (fun _ => rfl)
abbrev oChunkK (L : grid0.Coords) : Memref sig .scVector .hbm S512x128 .f32 := (oV).slice (oRectK L) (fun _ => rfl)
abbrev xAllK : Memref sig .scVector .hbm S100000x128 .f32 :=
  (xV).slice (Rect.unit (s := S100000x128) ![0, 0] S100000x128.size inb_S100000x128_S100000x128_0_0) (fun _ => rfl)

omit [FloatOps F] in
theorem set_oChunkK : (oChunkK L).view.set = chunkSet (L 0).val (L 1).val := by
  show ((View.whole (main_v0_scv : Ref sig .scVector)).slice (oRectK L)).set = _
  rw [View.set_slice_whole]; exact set_oRectK L

omit [FloatOps F] in
theorem pts_oChunkK (f : Buf (Elt F) (oLoc d)) :
    ((oChunkK L).view.loc (V d (cV L) (jV L)) ↦[(oChunkK L).view.set]{fullShare} f : sProp 𝕄) = oLoc d ↦[chunkSet (L 0).val (L 1).val]{fullShare} f := by
  rw [set_oChunkK]
omit [FloatOps F] in
theorem pts_iV (q : PosShare TreeShare) (f : Buf (Elt F) (iLoc d)) :
    ((iV).view.loc (V d (cV L) (jV L)) ↦{q} f : sProp 𝕄) = iLoc d ↦{q} f := rfl
omit [FloatOps F] in
theorem pts_xV (q : PosShare TreeShare) (f : Buf (Elt F) (xLoc d)) :
    ((xV).view.loc (V d (cV L) (jV L)) ↦{q} f : sProp 𝕄) = xLoc d ↦{q} f := rfl
omit [FloatOps F] in
theorem pts_sV (f : Buf (Elt F) ((V d (cV L) (jV L)).loc cc0_scratch0)) :
    ((sV).view.loc (V d (cV L) (jV L)) ↦{fullShare} f : sProp 𝕄) = (V d (cV L) (jV L)).loc cc0_scratch0 ↦{fullShare} f := rfl
omit [FloatOps F] in
theorem pts_rV (f : Buf (Elt F) ((V d (cV L) (jV L)).loc cc0_scratch1)) :
    ((rV).view.loc (V d (cV L) (jV L)) ↦{fullShare} f : sProp 𝕄) = (V d (cV L) (jV L)).loc cc0_scratch1 ↦{fullShare} f := rfl

/-- The tile's three DMA semaphores: the gather's, the list fetch's, the write-out's. -/
abbrev cGcell (d : Dev nD) (c : Fin τ.nSC) (i : Fin τ.nSub) : GSem nD τ sig := (V d c i, .dma cc0_scratch2.sem)
abbrev cAcell (d : Dev nD) (c : Fin τ.nSC) (i : Fin τ.nSub) : GSem nD τ sig := (V d c i, .dma cc0_scoped0.sem)
abbrev cBcell (d : Dev nD) (c : Fin τ.nSC) (i : Fin τ.nSub) : GSem nD τ sig := (V d c i, .dma cc0_scoped1.sem)

omit [FloatOps F] in
theorem ownSems0_V :
    (ownSems0 (V d (cV L) (jV L)) : sProp 𝕄)
      = iprop(semVal (cGcell d (cV L) (jV L)) 0 ∗ semVal (cAcell d (cV L) (jV L)) 0 ∗ semVal (cBcell d (cV L) (jV L)) 0
          ∗ bigSep ((((ownCells (V d (cV L) (jV L))).erase (cGcell d (cV L) (jV L))).erase (cAcell d (cV L) (jV L))).erase (cBcell d (cV L) (jV L)))
              fun g => semVal g 0) := by
  unfold SparseCore.Cfg.ownSems0
  rw [SparseCore.bigSep_erase' ((mem_ownCells (g := cGcell d (cV L) (jV L))).mpr ⟨rfl, by
      show (SemLoc.dma cc0_scratch2.sem : SemLoc sig).isScoped .scVector = true; decide⟩),
    SparseCore.bigSep_erase' (Finset.mem_erase.mpr ⟨by simp [cGcell, cAcell]; decide, (mem_ownCells (g := cAcell d (cV L) (jV L))).mpr ⟨rfl, by
      show (SemLoc.dma cc0_scoped0.sem : SemLoc sig).isScoped .scVector = true; decide⟩⟩),
    SparseCore.bigSep_erase' (Finset.mem_erase.mpr ⟨by simp [cAcell, cBcell]; decide, Finset.mem_erase.mpr ⟨by simp [cGcell, cBcell]; decide,
      (mem_ownCells (g := cBcell d (cV L) (jV L))).mpr ⟨rfl, by show (SemLoc.dma cc0_scoped1.sem : SemLoc sig).isScoped .scVector = true; decide⟩⟩⟩)]

omit [FloatOps F] in
/-- The two scratch buffers are among the tile's own: they are them, at some contents, and the rest. -/
theorem ownBufs_V :
    (ownBufs (V d (cV L) (jV L)) : sProp 𝕄)
      = iprop((∃ f, (V d (cV L) (jV L)).loc cc0_scratch0 ↦{fullShare} f) ∗ (∃ f, (V d (cV L) (jV L)).loc cc0_scratch1 ↦{fullShare} f)
          ∗ bigSep (((ownRefs (τ := τ) (.scVector (cV L) (jV L))).erase ((Proc.scVector (cV L) (jV L)).devRef cc0_scratch0)).erase
              ((Proc.scVector (cV L) (jV L)).devRef cc0_scratch1))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc0_scratch0) rfl)).trans ?_
  rw [SparseCore.bigSep_erase' (Finset.mem_erase.mpr ⟨fun e => absurd (Proc.devRef_injective _ e) (show (cc0_scratch1 : Ref sig .scVector) ≠ cc0_scratch0 by decide),
    SparseCore.Cfg.mem_ownRefs_of_owner (p := Proc.scVector (cV L) (jV L)) (b := (Proc.scVector (cV L) (jV L)).devRef cc0_scratch1) rfl⟩)]

omit [FloatOps F] in
/-- Row `k` of the tile's list slice is entry `512·(2s+c) + k` of the list: the same row the tile's block of the result
    starts from. -/
theorem iChunk_emb (k : Fin 512) (j : S512.Idx) (hj : (j 0).val = k.val) (y : S512x128.Idx) (hy : (y 0).val = k.val) :
    (iChunkK L).view.emb j = ValueIdx.ix1 ((oChunkK L).view.emb y 0) := by
  funext a
  match a with
  | ⟨0, _⟩ =>
    refine Fin.ext ?_
    show (k0_off1 L) 0 + 1 * (j 0).val = (k0_off2 L) 0 + 1 * (y 0).val
    rw [k0_off1_eq, k0_off2_eq, hj, hy]; rfl

omit [FloatOps F] in
/-- What the write-out leaves in the tile's block: at every element of the block, the table's entry in the row the
    list names for the element's row, same column. -/
theorem written_value (hpre : PreOK m)
    (fs : Buf (Elt F) ((V d (cV L) (jV L)).loc cc0_scratch0)) (fr : Buf (Elt F) ((V d (cV L) (jV L)).loc cc0_scratch1))
    (hn : S512.numel = S512x128.size gathers_S100000x128_S512x128.axis')
    (hin : ∀ x, ((sV).view.read (Elt F) (View.write (Elt F) (sV).view fs (ReadAs.same.apply ((iChunkK L).view.read (Elt F) (m (iLoc d)))) Finset.univ) x).toNat
        < S100000x128.size gathers_S100000x128_S512x128.axis) :
    ∀ i ∈ (oChunkK L).view.set,
      (oChunkK L).view.writes (Elt F) (m (oLoc d))
        [⟨Rect.whole S512x128, ReadAs.same.apply ((rV).view.read (Elt F) ((rV).view.writes (Elt F) fr
          [⟨Rect.whole S512x128, SparseCore.gatherPayload gathers_S100000x128_S512x128 ((xAllK).view.read (Elt F) (m (xLoc d)))
            (SparseCore.rows ((sV).view.read (Elt F) (View.write (Elt F) (sV).view fs (ReadAs.same.apply ((iChunkK L).view.read (Elt F) (m (iLoc d)))) Finset.univ)) hn hin)⟩]))⟩] i
        = gathered m hpre d i := by
  intro i hi
  obtain ⟨y, -, rfl⟩ := Finset.mem_map.mp hi
  have hlist : ∀ x, (sV).view.read (Elt F) (View.write (Elt F) (sV).view fs (ReadAs.same.apply ((iChunkK L).view.read (Elt F) (m (iLoc d)))) Finset.univ) x
      = m (iLoc d) ((iChunkK L).view.emb x) := by
    intro x
    rw [View.read_write_univ]
    exact (View.read_apply _ _).trans (cast_eq _ _)
  have e1 := View.read_writes_cons_emb (oChunkK L).view (m (oLoc d)) (Rect.whole S512x128)
    (ReadAs.same.apply ((rV).view.read (Elt F) ((rV).view.writes (Elt F) fr
          [⟨Rect.whole S512x128, SparseCore.gatherPayload gathers_S100000x128_S512x128 ((xAllK).view.read (Elt F) (m (xLoc d)))
            (SparseCore.rows ((sV).view.read (Elt F) (View.write (Elt F) (sV).view fs (ReadAs.same.apply ((iChunkK L).view.read (Elt F) (m (iLoc d)))) Finset.univ)) hn hin)⟩]))) [] y
  rw [Rect.emb_whole_apply, View.read_apply] at e1
  refine ((cast_eq _ _).symm.trans e1).trans ?_
  have e2 := View.read_writes_cons_emb (s := S512x128) (e := .f32) (rV).view fr (Rect.whole S512x128)
    (SparseCore.gatherPayload gathers_S100000x128_S512x128 ((xAllK).view.read (Elt F) (m (xLoc d)))
            (SparseCore.rows ((sV).view.read (Elt F) (View.write (Elt F) (sV).view fs (ReadAs.same.apply ((iChunkK L).view.read (Elt F) (m (iLoc d)))) Finset.univ)) hn hin)) [] y
  rw [Rect.emb_whole_apply] at e2
  refine e2.trans ?_
  unfold SparseCore.gatherPayload
  refine ((View.read_apply _ _).trans (cast_eq _ _)).trans ?_
  unfold gathered
  refine congrArg (m (xLoc d)) ?_
  funext a
  refine Fin.ext ?_
  match a with
  | ⟨0, h0⟩ =>
    have hk : (S512.rowMajor.symm ((y gathers_S100000x128_S512x128.axis').cast hn.symm) 0).val = (y 0).val := by
      have h := Shape.rowMajor_val_one (S512.rowMajor.symm ((y gathers_S100000x128_S512x128.axis').cast hn.symm))
      rw [Equiv.apply_symm_apply] at h
      exact h.symm
    show 0 + 1 * (Shape.Gathers.idx gathers_S100000x128_S512x128 _ y gathers_S100000x128_S512x128.axis).val
      = BitVec.toNat (m (iLoc d) (ValueIdx.ix1 ((oChunkK L).view.emb y 0)))
    rw [Shape.Gathers.idx_axis]
    show 0 + 1 * BitVec.toNat ((sV).view.read (Elt F) (View.write (Elt F) (sV).view fs (ReadAs.same.apply ((iChunkK L).view.read (Elt F) (m (iLoc d)))) Finset.univ)
      (S512.rowMajor.symm ((y gathers_S100000x128_S512x128.axis').cast hn.symm))) = _
    rw [hlist, iChunk_emb L ⟨(y 0).val, (y 0).isLt⟩ _ hk y rfl]
    exact (Nat.zero_add _).trans (Nat.one_mul _)
  | ⟨1, h1⟩ =>
    show 0 + 1 * (Shape.Gathers.idx gathers_S100000x128_S512x128 _ y ⟨1, h1⟩).val = (k0_off2 L) 1 + 1 * (y 1).val
    rw [Shape.Gathers.idx_of_ne _ _ _ _ Nat.one_ne_zero, k0_off2_eq]; rfl

set_option maxHeartbeats 4000000 in
/-- The task on the tile at grid point `L` of device `d`: the list fetch, the gather of the listed rows, the write-out,
    each waited for in turn; the tile's block of the result ends at the table's listed rows. -/
theorem tile_body (hF : (K (F := F)).Facts) (hpre : PreOK m) (O : CellTallies nD τ sig (HIx 1)) (W : Waits sig (HIx 1)) (hO : ∀ g, O g none = 0) :
    iprop(levAts (K (F := F)).L (K (F := F)).lev ∗ emp
        ∗ (iShPts m d (tileShare (L 0).val (L 1).val) ∗ xShPts m d (tileShare (L 0).val (L 1).val) ∗ oChunkPts d (L 0).val (L 1).val (m (oLoc d)))
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0_gather_kernel L iV (Memref.isWhole_whole _) xV (Memref.isWhole_whole _) oV (Memref.isWhole_whole _)
            sV (Memref.isWhole_whole _) rV (Memref.isWhole_whole _) cc0_scratch2 cc0_scoped0 cc0_scoped1)
          fun _ => iprop((iShPts m d (tileShare (L 0).val (L 1).val) ∗ xShPts m d (tileShare (L 0).val (L 1).val)
              ∗ oChunkPts d (L 0).val (L 1).val (gathered m hpre d))
            ∗ scopedBufs (V d (cV L) (jV L)) ∗ scopedSems0 (V d (cV L) (jV L))
            ∗ ∃ W', ⌜∀ p ∈ W', p ∈ W ∨ p.2 = none⌝ ∗ owes (V d (cV L) (jV L)) O W') := by
  simp only [cc0_gather_kernel_eq_skeleton]; unfold cc0_gather_kernel_skel
  rw [(K (F := F)).scopedBufs_V hF d (cV L) (jV L), SparseCore.Cfg.scopedSems0_V (Val := Elt F) d (cV L) (jV L), ownSems0_V, ownBufs_V]
  iintro ⟨#Hlv, -, ⟨Hi, Hx, Ho⟩, ⟨⟨%fs, Hs⟩, ⟨%fr, Hr⟩, Hbufs⟩, ⟨HsemG, HsemA, HsemB, Hsems⟩, HO⟩
  ihave Hmw := (show levAts (K (F := F)).L (K (F := F)).lev ⊢ Transfers.MayWaits (V d (cV L) (jV L)) (default : HIx 1) O from
    (K (F := F)).mayWaits_none (thr := V d (cV L) (jV L)) hO) $$ Hlv
  ihave Hi' := (Entails.of_eq (pts_iV (F := F) d L _ _).symm) $$ Hi
  ihave Hx' := (Entails.of_eq (pts_xV (F := F) d L _ _).symm) $$ Hx
  ihave Ho' := (Entails.of_eq (pts_oChunkK (F := F) d L _).symm) $$ Ho
  ihave Hs' := (Entails.of_eq (pts_sV (F := F) d L _).symm) $$ Hs
  ihave Hr' := (Entails.of_eq (pts_rV (F := F) d L _).symm) $$ Hr
  -- whatever the list scratch held before, after the fetch its words are entries of the index list: rows of the table
  have hin : ∀ (g : Buf (Elt F) ((V d (cV L) (jV L)).loc cc0_scratch0)) (x : S512.Idx),
      ((sV).view.read (Elt F) (View.write (Elt F) (sV).view g (ReadAs.same.apply ((iChunkK L).view.read (Elt F) (m (iLoc d)))) Finset.univ) x).toNat
        < S100000x128.size gathers_S100000x128_S512x128.axis := by
    intro g x
    rw [View.write_whole_univ]
    exact lt_of_eq_of_lt (congrArg BitVec.toNat ((View.read_apply _ _).trans (cast_eq _ _))) (hpre d _)
  sl_exec
  sl_step
  isplitl [Hi' Hx' Ho']
  · isplitl [Hi']; · iexact Hi'
    isplitl [Hx']; · iexact Hx'
    iapply (Entails.of_eq ((pointsTo_congr (written_value m d L hpre fs fr _ (hin fs))).trans (pts_oChunkK (F := F) d L _)))
    iexact Ho'
  isplitl [Hs' Hr' Hbufs]
  · isplitl [Hs']; · iexists _; iexact Hs'
    isplitl [Hr']; · iexists _; iexact Hr'
    iexact Hbufs
  isplitl [HsemG HsemA HsemB Hsems]
  · isplitl [HsemG]; · iexact HsemG
    isplitl [HsemA]; · iexact HsemA
    isplitl [HsemB]; · iexact HsemB
    iexact Hsems
  iexists _; isplitr
  swap; · iexact HO
  ipureintro; intro p hp
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  exact .inl hp

end Tile

end Cert.Proof.IdealGather

end
-- ==== Proof.IdealLaunch.lean ====
/-
  The row-gather program's run: the launch theorem applied to the one vector-subcore call. The call takes the index
  list and the table as read shares (one per SparseCore, cut again into one per tile) and the result as its 32 blocks of
  512 rows; every tile returns its shares and its block holding the table's rows the list names, and the blocks join
  to the whole result: row j of the result is row idx[j] of the table, the list and the table unchanged.
-/
import proofs.«203850_g42984032698415_cont_8to1_b_851_13_alg».proof.Proof.IdealBody

noncomputable section

namespace Cert.Proof.IdealGather

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ) (ρ : Dev nD → PrngReg)

local notation "iV" => (Memref.whole Cert.KernelIdeal.main_arg0_scv : Memref Cert.KernelIdeal.sig Kind.scVector Space.hbm Cert.KernelIdeal.S16384 EltTy.i32)
local notation "xV" => (Memref.whole Cert.KernelIdeal.main_arg1_scv : Memref Cert.KernelIdeal.sig Kind.scVector Space.hbm Cert.KernelIdeal.S100000x128 EltTy.f32)
local notation "oV" => (Memref.whole Cert.KernelIdeal.main_v0_scv : Memref Cert.KernelIdeal.sig Kind.scVector Space.hbm Cert.KernelIdeal.S16384x128 EltTy.f32)
local notation "sV" => (Memref.whole Cert.KernelIdeal.cc0_scratch0 : Memref Cert.KernelIdeal.sig Kind.scVector Space.vmem Cert.KernelIdeal.S512 EltTy.i32)
local notation "rV" => (Memref.whole Cert.KernelIdeal.cc0_scratch1 : Memref Cert.KernelIdeal.sig Kind.scVector Space.vmem Cert.KernelIdeal.S512x128 EltTy.f32)

variable [FloatOps F]

/-! ## The launch theorem's obligations -/

def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0_gather_kernel (coordsV c s)
          iV (Memref.isWhole_whole _) xV (Memref.isWhole_whole _) oV (Memref.isWhole_whole _)
          sV (Memref.isWhole_whole _) rV (Memref.isWhole_whole _) cc0_scratch2 cc0_scoped0 cc0_scoped1) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

theorem tileObl (hF : (K (F := F)).Facts) (hpre : PreOK m) : (K (F := F)).TileObl (D (F := F)) 𝒱 (P m hpre) v₀ 0 := by
  intro d c i O W hO _ _
  -- this kernel owes nothing for a protocol of its own
  simp only [show (P m hpre).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  exact (tile_body m d (coordsV ⟨_, hc.1⟩ ⟨_, hc.2⟩) hF hpre O W hO).trans (wp_mono frame _ _ fun _ => obl_post)

/-- A SparseCore's shares and blocks dealt to its sixteen tiles, and gathered back. -/
theorem vecSplit (hpre : PreOK m) : (K (F := F)).VecSplit' (P m hpre) 0 := by
  intro d c
  show iprop(iShPts m d (coreShare c.val) ∗ xShPts m d (coreShare c.val) ∗ bigSep Finset.univ fun i : Fin 16 => oChunkPts d c.val i.val (m (oLoc d)))
    ⊢ |={Set.univ}=> iprop(
      (bigSep Finset.univ fun i : Fin 16 =>
        iprop(iShPts m d (tileShare c.val i.val) ∗ xShPts m d (tileShare c.val i.val) ∗ oChunkPts d c.val i.val (m (oLoc d))))
      ∗ ((bigSep Finset.univ fun i : Fin 16 =>
          iprop(iShPts m d (tileShare c.val i.val) ∗ xShPts m d (tileShare c.val i.val) ∗ oChunkPts d c.val i.val (gathered m hpre d)))
          -∗ iprop(iShPts m d (coreShare c.val) ∗ xShPts m d (coreShare c.val) ∗ bigSep Finset.univ fun i : Fin 16 => oChunkPts d c.val i.val (gathered m hpre d))))
  rw [bigSep_sep', bigSep_sep', bigSep_sep', bigSep_sep']
  iintro ⟨Hi, Hx, Ho⟩
  ihave Hi2 := (Transfers.pointsTo_toks_split (coreShare c.val) 16) $$ Hi
  icases Hi2 with ⟨Hid, Hit⟩
  ihave Hx2 := (Transfers.pointsTo_toks_split (coreShare c.val) 16) $$ Hx
  icases Hx2 with ⟨Hxd, Hxt⟩
  imodintro
  isplitl [Hit Hxt Ho]
  · isplitl [Hit]; · iexact Hit
    isplitl [Hxt]; · iexact Hxt
    iexact Ho
  iintro ⟨Hit, Hxt, Ho⟩
  isplitl [Hid Hit]
  · iapply (Transfers.pointsTo_toks_join (coreShare c.val) 16)
    isplitl [Hid]; · iexact Hid
    iexact Hit
  isplitl [Hxd Hxt]
  · iapply (Transfers.pointsTo_toks_join (coreShare c.val) 16)
    isplitl [Hxd]; · iexact Hxd
    iexact Hxt
  iexact Ho

/-! ## The launch element: the handshakes' rounds; nothing of the kernel's own -/

def u₀ : UU := (initOf (K (F := F)).hsCells (K (F := F)).hsToks, 1)

omit [FloatOps F] in
theorem bigSep_emp' {I : Type} (s : Finset I) : (bigSep s fun _ => iprop(emp)) = (iprop(emp) : sProp 𝕄) := bigSep_emp_const s

theorem hu₀ (hpre : PreOK m) : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m hpre).x q thr) := by
  unfold u₀
  iintro Hu
  ihave H := (ownU_pair _ _) $$ Hu
  icases H with ⟨HH, -⟩
  imodintro
  isplitl [HH]; · iexact HH
  isplitr; · rw [bigSep_emp']; iempintro
  unfold P; dsimp only
  rw [show (bigSep Finset.univ fun _ : Thread nD τ => bigSep Finset.univ fun _ : Fin 1 => (iprop(emp) : sProp 𝕄)) = iprop(emp) from by
    rw [bigSep_congr fun _ _ => bigSep_emp' _, bigSep_emp']]
  iempintro

/-! ## @main on the TensorCore -/

omit [FloatOps F] in
theorem unscopedBufs_eq (d : Dev nD) (W : (b : Ref sig .tc) → Buf (Elt F) ((d.tc : Thread nD τ).loc b)) :
    (unscopedBufs d W : sProp 𝕄) = iprop((iLoc d ↦{fullShare} W main_arg0) ∗ (xLoc d ↦{fullShare} W main_arg1) ∗ oLoc d ↦{fullShare} W main_v0) := by
  unfold unscopedBufs
  rw [show (Finset.univ.filter fun b : Ref sig .tc => ¬ b.isScoped) = {main_arg0, main_arg1, main_v0} by decide,
    SparseCore.bigSep_insert' (by decide), SparseCore.bigSep_insert' (by decide), bigSep_singleton]

omit [FloatOps F] in
/-- The result whole is its 32 blocks, SparseCore by SparseCore. -/
theorem oPts_chunks (d : Dev nD) (f : Buf (Elt F) (oLoc d)) :
    (oLoc d ↦{fullShare} f : sProp 𝕄) = bigSep Finset.univ fun c : Fin 2 => bigSep Finset.univ fun i : Fin 16 => oLoc d ↦[chunkSet c.val i.val]{fullShare} f := by
  rw [← bigSep_univ_prod (fun p : Fin 2 × Fin 16 => (oLoc d ↦[chunkSet p.1.val p.2.val]{fullShare} f : sProp 𝕄)),
    ← pointsTo_biUnion Finset.univ (ℓ := oLoc d) (fun p : Fin 2 × Fin 16 => chunkSet p.1.val p.2.val) chunks_disjoint, chunks_cover]

theorem st0_eq (hpre : PreOK m) (d : Dev nD) :
    (bigSep Finset.univ fun c : Fin ((K (F := F)).nCore 0) => (P m hpre).st 0 d c)
      = iprop((bigSep Finset.univ fun c : Fin 2 => iShPts m d (coreShare c.val)) ∗ (bigSep Finset.univ fun c : Fin 2 => xShPts m d (coreShare c.val))
          ∗ bigSep Finset.univ fun c : Fin 2 => bigSep Finset.univ fun i : Fin 16 => oChunkPts d c.val i.val (m (oLoc d))) := by
  show (bigSep Finset.univ fun c : Fin 2 => iprop(iShPts m d (coreShare c.val) ∗ xShPts m d (coreShare c.val)
        ∗ bigSep Finset.univ fun i : Fin 16 => oChunkPts d c.val i.val (m (oLoc d)))) = _
  rw [bigSep_sep', bigSep_sep']
theorem dn0_eq (hpre : PreOK m) (d : Dev nD) :
    (bigSep Finset.univ fun c : Fin ((K (F := F)).nCore 0) => (P m hpre).dn 0 d c)
      = iprop((bigSep Finset.univ fun c : Fin 2 => iShPts m d (coreShare c.val)) ∗ (bigSep Finset.univ fun c : Fin 2 => xShPts m d (coreShare c.val))
          ∗ bigSep Finset.univ fun c : Fin 2 => bigSep Finset.univ fun i : Fin 16 => oChunkPts d c.val i.val (gathered m hpre d)) := by
  show (bigSep Finset.univ fun c : Fin 2 => iprop(iShPts m d (coreShare c.val) ∗ xShPts m d (coreShare c.val)
        ∗ bigSep Finset.univ fun i : Fin 16 => oChunkPts d c.val i.val (gathered m hpre d))) = _
  rw [bigSep_sep', bigSep_sep']

/-- What @main leaves the claim: the list and the table as launched, the result at the gathered rows. -/
abbrev FIN (hpre : PreOK m) (d : Dev nD) : sProp 𝕄 := iprop(iPts m d ∗ xPts m d ∗ oPts d (gathered m hpre d))

/-- @main on device `d`'s TensorCore: the one call. -/
theorem hmain (hpre : PreOK m) (κ : GSem nD τ sig → ℕ) (d : Dev nD) :
    iprop((K (F := F)).ctx EH (P m hpre) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m hpre d) := by
  unfold SparseCore.Cfg.tcRes
  rw [unscopedBufs_eq]
  simp only [main, wp_bind, wp_pure]
  iintro ⟨#Hctx, Hst, ⟨Hb, ⟨Hi, Hx, Ho⟩, -, -⟩, -⟩
  ihave Hi2 := (Transfers.pointsTo_toks_split fullShare 2) $$ Hi
  icases Hi2 with ⟨Hid, Hit⟩
  ihave Hx2 := (Transfers.pointsTo_toks_split fullShare 2) $$ Hx
  icases Hx2 with ⟨Hxd, Hxt⟩
  ihave Ho2 := (Entails.of_eq (oPts_chunks (F := F) d _)) $$ Ho
  iapply ((K (F := F)).wp_run (D (F := F)) 𝒱 (EH := EH) (P := P m hpre) κ d 0) $$ [Hst Hit Hxt Ho2 Hid Hxd]
  isplitr; · iexact Hctx
  isplitl [Hst]; · iexact Hst
  isplitl [Hit Hxt Ho2]
  · rw [st0_eq]
    isplitl [Hit]; · iexact Hit
    isplitl [Hxt]; · iexact Hxt
    iexact Ho2
  iintro ⟨Hst, Hdn⟩
  ihave Hdn' := (Entails.of_eq (dn0_eq m hpre d)) $$ Hdn
  icases Hdn' with ⟨Hit, Hxt, Ho2⟩
  imodintro
  isplitl [Hst]; · iexact Hst
  isplitl [Hid Hit]
  · iapply (Transfers.pointsTo_toks_join fullShare 2)
    isplitl [Hid]; · iexact Hid
    iexact Hit
  isplitl [Hxd Hxt]
  · iapply (Transfers.pointsTo_toks_join fullShare 2)
    isplitl [Hxd]; · iexact Hxd
    iexact Hxt
  iapply (Entails.of_eq (oPts_chunks (F := F) d _).symm); iexact Ho2

def fq (hpre : PreOK m) (d : Dev nD) (s' : Phys nD τ sig (Elt F)) : Prop :=
  s'.mem.mem (oLoc d) = gathered m hpre d ∧ s'.mem.mem (iLoc d) = m (iLoc d) ∧ s'.mem.mem (xLoc d) = m (xLoc d)

theorem hfin (hpre : PreOK m) (d : Dev nD) (s' : Phys nD τ sig (Elt F)) : iprop(FIN m hpre d ∗ SI s') ⊢ (⌜fq m hpre d s'⌝ : sProp 𝕄) := by
  iintro ⟨⟨Hi, Hx, Ho⟩, HSI⟩
  ihave H := (persistent_entails_right (SI_pointsTo_agree (st := s') (ℓ := iLoc d) (I := Finset.univ) (q := fullShare) (f := m (iLoc d)))) $$ [HSI Hi]
  · isplitl [HSI] <;> iassumption
  icases H with ⟨%h1, HSI, -⟩
  ihave H := (persistent_entails_right (SI_pointsTo_agree (st := s') (ℓ := xLoc d) (I := Finset.univ) (q := fullShare) (f := m (xLoc d)))) $$ [HSI Hx]
  · isplitl [HSI] <;> iassumption
  icases H with ⟨%h2, HSI, -⟩
  ihave H := (SI_pointsTo_agree (st := s') (ℓ := oLoc d) (I := Finset.univ) (q := fullShare) (f := gathered m hpre d)) $$ [HSI Ho]
  · isplitl [HSI] <;> iassumption
  icases H with %h3
  ipureintro; exact ⟨funext fun i => h3 i (Finset.mem_univ i), funext fun i => h1 i (Finset.mem_univ i), funext fun i => h2 i (Finset.mem_univ i)⟩

/-! ## The program's run -/

def QC (hpre : PreOK m) : PUnit × MemSt nD τ sig (Elt F) → Prop := fun r => ∀ c : Dev nD,
  r.2.mem (oLoc c) = gathered m hpre c ∧ r.2.mem (iLoc c) = m (iLoc c) ∧ r.2.mem (xLoc c) = m (xLoc c)

/-- Every weakly fair execution of the program's threads terminates, nothing faulting; at the end the result holds the
    table's rows the list names, and the list and the table are as launched. -/
theorem run_main [∀ e, Nonempty (Elt F e)] (hpre : PreOK m) :
    θ_run (Cert.KernelIdeal.defs (F := F)) (Cert.KernelIdeal.threads (F := F)) ⟨m, fun _ => 0, ρ⟩ (QC m hpre) :=
  SparseCore.Cfg.θ_run_sc (K := K (F := F)) (D := D (F := F)) (𝒱 := 𝒱) (EH := EH) (P := P m hpre) facts v₀
    (fun q hq => match q with | 0 => nomatch hq)
    (fun q _ => match q with | 0 => tileObl m facts hpre)
    (fun q _ => match q with | 0 => SparseCore.Cfg.VecSplit.of_plain (vecSplit m hpre))
    m ρ main (fun _ => iprop(emp)) (FIN m hpre) (u₀ (F := F)) (sep_elim_left.trans (hu₀ m hpre)) (hmain m ρ hpre) (fq m hpre) (hfin m hpre) (QC m hpre) (fun _ h => h)

end Cert.Proof.IdealGather

end
-- ==== Proof.BitsSetup.lean ====
/-
  Shared definitions for the row-gather kernel's run: the launch configuration, the ghost state (the handshakes'
  rounds beside the transfers' counters), the three arrays as the tiles address them, the 32 row blocks of the
  result (block 2·s + c belongs to tile s of SparseCore c), the read shares of the index list and of the table, what
  the handshakes carry, and the function the result is claimed to be: row j of the result is row idx[j] of the table.
-/
import proofs.«203850_g42984032698415_cont_8to1_b_851_13_alg».proof.Defs
import Idealize.ShloMosaic.Lib.SparseCore.Launch
import Idealize.ShloMosaic.Lib.SparseCore.Ops
import Idealize.ShloMosaic.Lib.SparseCore.Stream
import Idealize.ShloMosaic.Lib.StableHlo.Run
import Idealize.ShloMosaic.Lib.Pipeline.Kit
import Idealize.ShloMosaic.Lib.Tactic
import Idealize.ShloMosaic.Lib.ValueIdx
import proofs.«203850_g42984032698415_cont_8to1_b_851_13_alg».proof.Proof.Gen.Kernel
import proofs.«203850_g42984032698415_cont_8to1_b_851_13_alg».proof.Proof.Gen.Kernel.Skeleton

noncomputable section

namespace Cert.Proof.BitsGather

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds, the transfers' counters -/

abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

/-! ## The launch memory and the arrays -/

variable (m : (ℓ : Loc nD τ sig) → Buf (Elt F) ℓ) (ρ : Dev nD → PrngReg)

/-- The index list, the table and the result, as locations of device `d`. -/
abbrev iLoc (d : Dev nD) : Loc nD τ sig := (SparseCore.T d).loc main_arg0
abbrev xLoc (d : Dev nD) : Loc nD τ sig := (SparseCore.T d).loc main_arg1
abbrev oLoc (d : Dev nD) : Loc nD τ sig := (SparseCore.T d).loc main_v0

/-- Every index names a row of the table. -/
def PreOK : Prop := ∀ (d : Dev nD) (j : S16384.Idx), (m (iLoc d) j).toNat < 100000

/-- The claimed result: entry (j, k) is the table's entry (idx j, k). -/
def gathered (hpre : PreOK m) (d : Dev nD) : Buf (Elt F) (oLoc d) :=
  fun (j : S16384x128.Idx) => m (xLoc d) (ValueIdx.ix2 (⟨(m (iLoc d) (ValueIdx.ix1 (j 0))).toNat, hpre d _⟩ : Fin 100000) (j 1))

/-! ## The result's 32 row blocks -/

/-- Block `2·i + c` of 512 rows: the rows tile `i` of SparseCore `c` writes. -/
def chunkSet (c i : ℕ) : Finset S16384x128.Idx := Finset.univ.filter fun j => (j 0).val / 512 = 2 * i + c

omit m ρ in
theorem chunks_disjoint : ∀ p ∈ (Finset.univ : Finset (Fin 2 × Fin 16)), ∀ p' ∈ (Finset.univ : Finset (Fin 2 × Fin 16)), p ≠ p' →
    Disjoint (chunkSet p.1.val p.2.val) (chunkSet p'.1.val p'.2.val) := by
  rintro ⟨c, i⟩ - ⟨c', i'⟩ - hne
  refine Finset.disjoint_left.mpr fun j h h' => hne ?_
  have e := (Finset.mem_filter.mp h).2
  have e' := (Finset.mem_filter.mp h').2
  have hc := c.isLt; have hc' := c'.isLt
  exact Prod.ext (Fin.ext (by omega)) (Fin.ext (by omega))

omit m ρ in
theorem chunks_cover : (Finset.univ : Finset (Fin 2 × Fin 16)).biUnion (fun p => chunkSet p.1.val p.2.val) = Finset.univ := by
  ext j
  simp only [Finset.mem_biUnion, Finset.mem_univ, true_and, iff_true]
  have hj : (j 0).val < 16384 := (j 0).isLt
  refine ⟨(⟨(j 0).val / 512 % 2, Nat.mod_lt _ (by decide)⟩, ⟨(j 0).val / 512 / 2, by omega⟩), Finset.mem_filter.mpr ⟨Finset.mem_univ _, ?_⟩⟩
  show (j 0).val / 512 = 2 * ((j 0).val / 512 / 2) + (j 0).val / 512 % 2
  omega

/-! ## Read shares: the full share cut once per SparseCore, then once per tile -/

abbrev coreShare (c : ℕ) : PosShare TreeShare := Transfers.shareTokN fullShare c
abbrev tileShare (c i : ℕ) : PosShare TreeShare := Transfers.shareTokN (coreShare c) i

variable [FloatOps F]

/-! ## What the handshakes carry -/

abbrev iPts (d : Dev nD) : sProp 𝕄 := iLoc d ↦{fullShare} m (iLoc d)
abbrev xPts (d : Dev nD) : sProp 𝕄 := xLoc d ↦{fullShare} m (xLoc d)
abbrev oPts (d : Dev nD) (f : Buf (Elt F) (oLoc d)) : sProp 𝕄 := oLoc d ↦{fullShare} f
abbrev iShPts (d : Dev nD) (q : PosShare TreeShare) : sProp 𝕄 := iLoc d ↦{q} m (iLoc d)
abbrev xShPts (d : Dev nD) (q : PosShare TreeShare) : sProp 𝕄 := xLoc d ↦{q} m (xLoc d)
abbrev oChunkPts (d : Dev nD) (c i : ℕ) (f : Buf (Elt F) (oLoc d)) : sProp 𝕄 := oLoc d ↦[chunkSet c i]{fullShare} f

/-- The call hands SparseCore `c` a read share of the list and of the table and its sixteen blocks of the result;
    each tile a share of the two and its block; back come the same, the blocks at the claimed result. -/
def P (hpre : PreOK m) : (K (F := F)).Pay (nD := nD) (Val := Elt F) (Name := ℕ) (U := UU) where
  st := fun q d c => match q with
    | 0 => iprop(iShPts m d (coreShare c.val) ∗ xShPts m d (coreShare c.val)
        ∗ bigSep Finset.univ fun i : Fin 16 => oChunkPts d c.val i.val (m (oLoc d)))
  dn := fun q d c => match q with
    | 0 => iprop(iShPts m d (coreShare c.val) ∗ xShPts m d (coreShare c.val)
        ∗ bigSep Finset.univ fun i : Fin 16 => oChunkPts d c.val i.val (gathered m hpre d))
  go := fun q d c i => match q with
    | 0 => iprop(iShPts m d (tileShare c.val i.val) ∗ xShPts m d (tileShare c.val i.val) ∗ oChunkPts d c.val i.val (m (oLoc d)))
  td := fun q d c i => match q with
    | 0 => iprop(iShPts m d (tileShare c.val i.val) ∗ xShPts m d (tileShare c.val i.val) ∗ oChunkPts d c.val i.val (gathered m hpre d))
  x := fun _ _ => iprop(emp)

instance P_storable (hpre : PreOK m) : (P (F := F) m hpre).IsStorable where
  st q d c := match q with
    | 0 => (inferInstance : BI.Storable (upEmb : UEmb _ 𝕄) iprop(iShPts m d (coreShare c.val) ∗ xShPts m d (coreShare c.val)
        ∗ bigSep Finset.univ fun i : Fin 16 => oChunkPts d c.val i.val (m (oLoc d))))
  dn q d c := match q with
    | 0 => (inferInstance : BI.Storable (upEmb : UEmb _ 𝕄) iprop(iShPts m d (coreShare c.val) ∗ xShPts m d (coreShare c.val)
        ∗ bigSep Finset.univ fun i : Fin 16 => oChunkPts d c.val i.val (gathered m hpre d)))
  go q d c i := match q with
    | 0 => (inferInstance : BI.Storable (upEmb : UEmb _ 𝕄)
        iprop(iShPts m d (tileShare c.val i.val) ∗ xShPts m d (tileShare c.val i.val) ∗ oChunkPts d c.val i.val (m (oLoc d))))
  td q d c i := match q with
    | 0 => (inferInstance : BI.Storable (upEmb : UEmb _ 𝕄)
        iprop(iShPts m d (tileShare c.val i.val) ∗ xShPts m d (tileShare c.val i.val) ∗ oChunkPts d c.val i.val (gathered m hpre d)))

/-! ## A tile's coordinates and its slices -/

abbrev cV (L : grid0.Coords) : Fin τ.nSC := (L 0).castLE hcore0
abbrev jV (L : grid0.Coords) : Fin τ.nSub := (L 1).castLE hsub0

abbrev iRectK (L : grid0.Coords) : Rect S16384 := Rect.unit (s := S16384) (k0_off1 L) S512.size (k0_off1_inb L)
abbrev oRectK (L : grid0.Coords) : Rect S16384x128 := Rect.unit (s := S16384x128) (k0_off2 L) S512x128.size (k0_off2_inb L)

omit m ρ [FloatOps F] in
/-- The block the tile at `L` writes is block `2·(L 1) + (L 0)`. -/
theorem set_oRectK (L : grid0.Coords) : (oRectK L).set = chunkSet (L 0).val (L 1).val := by
  ext j
  rw [Rect.mem_set_unit, k0_off2_eq]
  simp only [chunkSet, Finset.mem_filter, Finset.mem_univ, true_and, Fin.forall_fin_two]
  have h1 : (j 1).val < 128 := (j 1).isLt
  have hc : (L 0).val < 2 := (L 0).isLt
  have hs : (L 1).val < 16 := (L 1).isLt
  show (1024 * (L 1).val + 512 * (L 0).val ≤ (j 0).val ∧ (j 0).val < 1024 * (L 1).val + 512 * (L 0).val + 512) ∧ (0 ≤ (j 1).val ∧ (j 1).val < 0 + 128) ↔ _
  constructor
  · rintro ⟨⟨h, h'⟩, -⟩; omega
  · intro h; refine ⟨?_, by omega, by omega⟩; omega

end Cert.Proof.BitsGather

end
-- ==== Proof.BitsBody.lean ====
/-
  One tile's task of the row-gather kernel: the tile at grid point (c, s) copies entries [512·(2s+c), 512·(2s+c)+512) of
  the index list into its list scratch, gathers the table rows those entries name into its row scratch, and copies the
  row scratch out to the same 512 rows of the result. Each copy is waited for before the next starts, so the three
  copies never overlap; what the block of the result holds at the end is the table read at the listed rows.
-/
import proofs.«203850_g42984032698415_cont_8to1_b_851_13_alg».proof.Proof.BitsSetup

noncomputable section

namespace Cert.Proof.BitsGather

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ) (ρ : Dev nD → PrngReg)

local notation "iV" => (Memref.whole Cert.Kernel.main_arg0_scv : Memref Cert.Kernel.sig Kind.scVector Space.hbm Cert.Kernel.S16384 EltTy.i32)
local notation "xV" => (Memref.whole Cert.Kernel.main_arg1_scv : Memref Cert.Kernel.sig Kind.scVector Space.hbm Cert.Kernel.S100000x128 EltTy.f32)
local notation "oV" => (Memref.whole Cert.Kernel.main_v0_scv : Memref Cert.Kernel.sig Kind.scVector Space.hbm Cert.Kernel.S16384x128 EltTy.f32)
local notation "sV" => (Memref.whole Cert.Kernel.cc0_scratch0 : Memref Cert.Kernel.sig Kind.scVector Space.vmem Cert.Kernel.S512 EltTy.i32)
local notation "rV" => (Memref.whole Cert.Kernel.cc0_scratch1 : Memref Cert.Kernel.sig Kind.scVector Space.vmem Cert.Kernel.S512x128 EltTy.f32)

variable [FloatOps F]

section Tile

variable (d : Dev nD) (L : grid0.Coords)

/-- The tile's slice of the list and its block of the result, as the kernel slices them. -/
abbrev iChunkK (L : grid0.Coords) : Memref sig .scVector .hbm S512 .i32 := (iV).slice (iRectK L) (fun _ => rfl)
abbrev oChunkK (L : grid0.Coords) : Memref sig .scVector .hbm S512x128 .f32 := (oV).slice (oRectK L) (fun _ => rfl)
abbrev xAllK : Memref sig .scVector .hbm S100000x128 .f32 :=
  (xV).slice (Rect.unit (s := S100000x128) ![0, 0] S100000x128.size inb_S100000x128_S100000x128_0_0) (fun _ => rfl)

omit [FloatOps F] in
theorem set_oChunkK : (oChunkK L).view.set = chunkSet (L 0).val (L 1).val := by
  show ((View.whole (main_v0_scv : Ref sig .scVector)).slice (oRectK L)).set = _
  rw [View.set_slice_whole]; exact set_oRectK L

omit [FloatOps F] in
theorem pts_oChunkK (f : Buf (Elt F) (oLoc d)) :
    ((oChunkK L).view.loc (V d (cV L) (jV L)) ↦[(oChunkK L).view.set]{fullShare} f : sProp 𝕄) = oLoc d ↦[chunkSet (L 0).val (L 1).val]{fullShare} f := by
  rw [set_oChunkK]
omit [FloatOps F] in
theorem pts_iV (q : PosShare TreeShare) (f : Buf (Elt F) (iLoc d)) :
    ((iV).view.loc (V d (cV L) (jV L)) ↦{q} f : sProp 𝕄) = iLoc d ↦{q} f := rfl
omit [FloatOps F] in
theorem pts_xV (q : PosShare TreeShare) (f : Buf (Elt F) (xLoc d)) :
    ((xV).view.loc (V d (cV L) (jV L)) ↦{q} f : sProp 𝕄) = xLoc d ↦{q} f := rfl
omit [FloatOps F] in
theorem pts_sV (f : Buf (Elt F) ((V d (cV L) (jV L)).loc cc0_scratch0)) :
    ((sV).view.loc (V d (cV L) (jV L)) ↦{fullShare} f : sProp 𝕄) = (V d (cV L) (jV L)).loc cc0_scratch0 ↦{fullShare} f := rfl
omit [FloatOps F] in
theorem pts_rV (f : Buf (Elt F) ((V d (cV L) (jV L)).loc cc0_scratch1)) :
    ((rV).view.loc (V d (cV L) (jV L)) ↦{fullShare} f : sProp 𝕄) = (V d (cV L) (jV L)).loc cc0_scratch1 ↦{fullShare} f := rfl

/-- The tile's three DMA semaphores: the gather's, the list fetch's, the write-out's. -/
abbrev cGcell (d : Dev nD) (c : Fin τ.nSC) (i : Fin τ.nSub) : GSem nD τ sig := (V d c i, .dma cc0_scratch2.sem)
abbrev cAcell (d : Dev nD) (c : Fin τ.nSC) (i : Fin τ.nSub) : GSem nD τ sig := (V d c i, .dma cc0_scoped0.sem)
abbrev cBcell (d : Dev nD) (c : Fin τ.nSC) (i : Fin τ.nSub) : GSem nD τ sig := (V d c i, .dma cc0_scoped1.sem)

omit [FloatOps F] in
theorem ownSems0_V :
    (ownSems0 (V d (cV L) (jV L)) : sProp 𝕄)
      = iprop(semVal (cGcell d (cV L) (jV L)) 0 ∗ semVal (cAcell d (cV L) (jV L)) 0 ∗ semVal (cBcell d (cV L) (jV L)) 0
          ∗ bigSep ((((ownCells (V d (cV L) (jV L))).erase (cGcell d (cV L) (jV L))).erase (cAcell d (cV L) (jV L))).erase (cBcell d (cV L) (jV L)))
              fun g => semVal g 0) := by
  unfold SparseCore.Cfg.ownSems0
  rw [SparseCore.bigSep_erase' ((mem_ownCells (g := cGcell d (cV L) (jV L))).mpr ⟨rfl, by
      show (SemLoc.dma cc0_scratch2.sem : SemLoc sig).isScoped .scVector = true; decide⟩),
    SparseCore.bigSep_erase' (Finset.mem_erase.mpr ⟨by simp [cGcell, cAcell]; decide, (mem_ownCells (g := cAcell d (cV L) (jV L))).mpr ⟨rfl, by
      show (SemLoc.dma cc0_scoped0.sem : SemLoc sig).isScoped .scVector = true; decide⟩⟩),
    SparseCore.bigSep_erase' (Finset.mem_erase.mpr ⟨by simp [cAcell, cBcell]; decide, Finset.mem_erase.mpr ⟨by simp [cGcell, cBcell]; decide,
      (mem_ownCells (g := cBcell d (cV L) (jV L))).mpr ⟨rfl, by show (SemLoc.dma cc0_scoped1.sem : SemLoc sig).isScoped .scVector = true; decide⟩⟩⟩)]

omit [FloatOps F] in
/-- The two scratch buffers are among the tile's own: they are them, at some contents, and the rest. -/
theorem ownBufs_V :
    (ownBufs (V d (cV L) (jV L)) : sProp 𝕄)
      = iprop((∃ f, (V d (cV L) (jV L)).loc cc0_scratch0 ↦{fullShare} f) ∗ (∃ f, (V d (cV L) (jV L)).loc cc0_scratch1 ↦{fullShare} f)
          ∗ bigSep (((ownRefs (τ := τ) (.scVector (cV L) (jV L))).erase ((Proc.scVector (cV L) (jV L)).devRef cc0_scratch0)).erase
              ((Proc.scVector (cV L) (jV L)).devRef cc0_scratch1))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc0_scratch0) rfl)).trans ?_
  rw [SparseCore.bigSep_erase' (Finset.mem_erase.mpr ⟨fun e => absurd (Proc.devRef_injective _ e) (show (cc0_scratch1 : Ref sig .scVector) ≠ cc0_scratch0 by decide),
    SparseCore.Cfg.mem_ownRefs_of_owner (p := Proc.scVector (cV L) (jV L)) (b := (Proc.scVector (cV L) (jV L)).devRef cc0_scratch1) rfl⟩)]

omit [FloatOps F] in
/-- Row `k` of the tile's list slice is entry `512·(2s+c) + k` of the list: the same row the tile's block of the result
    starts from. -/
theorem iChunk_emb (k : Fin 512) (j : S512.Idx) (hj : (j 0).val = k.val) (y : S512x128.Idx) (hy : (y 0).val = k.val) :
    (iChunkK L).view.emb j = ValueIdx.ix1 ((oChunkK L).view.emb y 0) := by
  funext a
  match a with
  | ⟨0, _⟩ =>
    refine Fin.ext ?_
    show (k0_off1 L) 0 + 1 * (j 0).val = (k0_off2 L) 0 + 1 * (y 0).val
    rw [k0_off1_eq, k0_off2_eq, hj, hy]; rfl

omit [FloatOps F] in
/-- What the write-out leaves in the tile's block: at every element of the block, the table's entry in the row the
    list names for the element's row, same column. -/
theorem written_value (hpre : PreOK m)
    (fs : Buf (Elt F) ((V d (cV L) (jV L)).loc cc0_scratch0)) (fr : Buf (Elt F) ((V d (cV L) (jV L)).loc cc0_scratch1))
    (hn : S512.numel = S512x128.size gathers_S100000x128_S512x128.axis')
    (hin : ∀ x, ((sV).view.read (Elt F) (View.write (Elt F) (sV).view fs (ReadAs.same.apply ((iChunkK L).view.read (Elt F) (m (iLoc d)))) Finset.univ) x).toNat
        < S100000x128.size gathers_S100000x128_S512x128.axis) :
    ∀ i ∈ (oChunkK L).view.set,
      (oChunkK L).view.writes (Elt F) (m (oLoc d))
        [⟨Rect.whole S512x128, ReadAs.same.apply ((rV).view.read (Elt F) ((rV).view.writes (Elt F) fr
          [⟨Rect.whole S512x128, SparseCore.gatherPayload gathers_S100000x128_S512x128 ((xAllK).view.read (Elt F) (m (xLoc d)))
            (SparseCore.rows ((sV).view.read (Elt F) (View.write (Elt F) (sV).view fs (ReadAs.same.apply ((iChunkK L).view.read (Elt F) (m (iLoc d)))) Finset.univ)) hn hin)⟩]))⟩] i
        = gathered m hpre d i := by
  intro i hi
  obtain ⟨y, -, rfl⟩ := Finset.mem_map.mp hi
  have hlist : ∀ x, (sV).view.read (Elt F) (View.write (Elt F) (sV).view fs (ReadAs.same.apply ((iChunkK L).view.read (Elt F) (m (iLoc d)))) Finset.univ) x
      = m (iLoc d) ((iChunkK L).view.emb x) := by
    intro x
    rw [View.read_write_univ]
    exact (View.read_apply _ _).trans (cast_eq _ _)
  have e1 := View.read_writes_cons_emb (oChunkK L).view (m (oLoc d)) (Rect.whole S512x128)
    (ReadAs.same.apply ((rV).view.read (Elt F) ((rV).view.writes (Elt F) fr
          [⟨Rect.whole S512x128, SparseCore.gatherPayload gathers_S100000x128_S512x128 ((xAllK).view.read (Elt F) (m (xLoc d)))
            (SparseCore.rows ((sV).view.read (Elt F) (View.write (Elt F) (sV).view fs (ReadAs.same.apply ((iChunkK L).view.read (Elt F) (m (iLoc d)))) Finset.univ)) hn hin)⟩]))) [] y
  rw [Rect.emb_whole_apply, View.read_apply] at e1
  refine ((cast_eq _ _).symm.trans e1).trans ?_
  have e2 := View.read_writes_cons_emb (s := S512x128) (e := .f32) (rV).view fr (Rect.whole S512x128)
    (SparseCore.gatherPayload gathers_S100000x128_S512x128 ((xAllK).view.read (Elt F) (m (xLoc d)))
            (SparseCore.rows ((sV).view.read (Elt F) (View.write (Elt F) (sV).view fs (ReadAs.same.apply ((iChunkK L).view.read (Elt F) (m (iLoc d)))) Finset.univ)) hn hin)) [] y
  rw [Rect.emb_whole_apply] at e2
  refine e2.trans ?_
  unfold SparseCore.gatherPayload
  refine ((View.read_apply _ _).trans (cast_eq _ _)).trans ?_
  unfold gathered
  refine congrArg (m (xLoc d)) ?_
  funext a
  refine Fin.ext ?_
  match a with
  | ⟨0, h0⟩ =>
    have hk : (S512.rowMajor.symm ((y gathers_S100000x128_S512x128.axis').cast hn.symm) 0).val = (y 0).val := by
      have h := Shape.rowMajor_val_one (S512.rowMajor.symm ((y gathers_S100000x128_S512x128.axis').cast hn.symm))
      rw [Equiv.apply_symm_apply] at h
      exact h.symm
    show 0 + 1 * (Shape.Gathers.idx gathers_S100000x128_S512x128 _ y gathers_S100000x128_S512x128.axis).val
      = BitVec.toNat (m (iLoc d) (ValueIdx.ix1 ((oChunkK L).view.emb y 0)))
    rw [Shape.Gathers.idx_axis]
    show 0 + 1 * BitVec.toNat ((sV).view.read (Elt F) (View.write (Elt F) (sV).view fs (ReadAs.same.apply ((iChunkK L).view.read (Elt F) (m (iLoc d)))) Finset.univ)
      (S512.rowMajor.symm ((y gathers_S100000x128_S512x128.axis').cast hn.symm))) = _
    rw [hlist, iChunk_emb L ⟨(y 0).val, (y 0).isLt⟩ _ hk y rfl]
    exact (Nat.zero_add _).trans (Nat.one_mul _)
  | ⟨1, h1⟩ =>
    show 0 + 1 * (Shape.Gathers.idx gathers_S100000x128_S512x128 _ y ⟨1, h1⟩).val = (k0_off2 L) 1 + 1 * (y 1).val
    rw [Shape.Gathers.idx_of_ne _ _ _ _ Nat.one_ne_zero, k0_off2_eq]; rfl

set_option maxHeartbeats 4000000 in
/-- The task on the tile at grid point `L` of device `d`: the list fetch, the gather of the listed rows, the write-out,
    each waited for in turn; the tile's block of the result ends at the table's listed rows. -/
theorem tile_body (hF : (K (F := F)).Facts) (hpre : PreOK m) (O : CellTallies nD τ sig (HIx 1)) (W : Waits sig (HIx 1)) (hO : ∀ g, O g none = 0) :
    iprop(levAts (K (F := F)).L (K (F := F)).lev ∗ emp
        ∗ (iShPts m d (tileShare (L 0).val (L 1).val) ∗ xShPts m d (tileShare (L 0).val (L 1).val) ∗ oChunkPts d (L 0).val (L 1).val (m (oLoc d)))
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0_gather_kernel L iV (Memref.isWhole_whole _) xV (Memref.isWhole_whole _) oV (Memref.isWhole_whole _)
            sV (Memref.isWhole_whole _) rV (Memref.isWhole_whole _) cc0_scratch2 cc0_scoped0 cc0_scoped1)
          fun _ => iprop((iShPts m d (tileShare (L 0).val (L 1).val) ∗ xShPts m d (tileShare (L 0).val (L 1).val)
              ∗ oChunkPts d (L 0).val (L 1).val (gathered m hpre d))
            ∗ scopedBufs (V d (cV L) (jV L)) ∗ scopedSems0 (V d (cV L) (jV L))
            ∗ ∃ W', ⌜∀ p ∈ W', p ∈ W ∨ p.2 = none⌝ ∗ owes (V d (cV L) (jV L)) O W') := by
  simp only [cc0_gather_kernel_eq_skeleton]; unfold cc0_gather_kernel_skel
  rw [(K (F := F)).scopedBufs_V hF d (cV L) (jV L), SparseCore.Cfg.scopedSems0_V (Val := Elt F) d (cV L) (jV L), ownSems0_V, ownBufs_V]
  iintro ⟨#Hlv, -, ⟨Hi, Hx, Ho⟩, ⟨⟨%fs, Hs⟩, ⟨%fr, Hr⟩, Hbufs⟩, ⟨HsemG, HsemA, HsemB, Hsems⟩, HO⟩
  ihave Hmw := (show levAts (K (F := F)).L (K (F := F)).lev ⊢ Transfers.MayWaits (V d (cV L) (jV L)) (default : HIx 1) O from
    (K (F := F)).mayWaits_none (thr := V d (cV L) (jV L)) hO) $$ Hlv
  ihave Hi' := (Entails.of_eq (pts_iV (F := F) d L _ _).symm) $$ Hi
  ihave Hx' := (Entails.of_eq (pts_xV (F := F) d L _ _).symm) $$ Hx
  ihave Ho' := (Entails.of_eq (pts_oChunkK (F := F) d L _).symm) $$ Ho
  ihave Hs' := (Entails.of_eq (pts_sV (F := F) d L _).symm) $$ Hs
  ihave Hr' := (Entails.of_eq (pts_rV (F := F) d L _).symm) $$ Hr
  -- whatever the list scratch held before, after the fetch its words are entries of the index list: rows of the table
  have hin : ∀ (g : Buf (Elt F) ((V d (cV L) (jV L)).loc cc0_scratch0)) (x : S512.Idx),
      ((sV).view.read (Elt F) (View.write (Elt F) (sV).view g (ReadAs.same.apply ((iChunkK L).view.read (Elt F) (m (iLoc d)))) Finset.univ) x).toNat
        < S100000x128.size gathers_S100000x128_S512x128.axis := by
    intro g x
    rw [View.write_whole_univ]
    exact lt_of_eq_of_lt (congrArg BitVec.toNat ((View.read_apply _ _).trans (cast_eq _ _))) (hpre d _)
  sl_exec
  sl_step
  isplitl [Hi' Hx' Ho']
  · isplitl [Hi']; · iexact Hi'
    isplitl [Hx']; · iexact Hx'
    iapply (Entails.of_eq ((pointsTo_congr (written_value m d L hpre fs fr _ (hin fs))).trans (pts_oChunkK (F := F) d L _)))
    iexact Ho'
  isplitl [Hs' Hr' Hbufs]
  · isplitl [Hs']; · iexists _; iexact Hs'
    isplitl [Hr']; · iexists _; iexact Hr'
    iexact Hbufs
  isplitl [HsemG HsemA HsemB Hsems]
  · isplitl [HsemG]; · iexact HsemG
    isplitl [HsemA]; · iexact HsemA
    isplitl [HsemB]; · iexact HsemB
    iexact Hsems
  iexists _; isplitr
  swap; · iexact HO
  ipureintro; intro p hp
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  exact .inl hp

end Tile

end Cert.Proof.BitsGather

end
-- ==== Proof.BitsLaunch.lean ====
/-
  The row-gather program's run: the launch theorem applied to the one vector-subcore call. The call takes the index
  list and the table as read shares (one per SparseCore, cut again into one per tile) and the result as its 32 blocks of
  512 rows; every tile returns its shares and its block holding the table's rows the list names, and the blocks join
  to the whole result: row j of the result is row idx[j] of the table, the list and the table unchanged.
-/
import proofs.«203850_g42984032698415_cont_8to1_b_851_13_alg».proof.Proof.BitsBody

noncomputable section

namespace Cert.Proof.BitsGather

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ) (ρ : Dev nD → PrngReg)

local notation "iV" => (Memref.whole Cert.Kernel.main_arg0_scv : Memref Cert.Kernel.sig Kind.scVector Space.hbm Cert.Kernel.S16384 EltTy.i32)
local notation "xV" => (Memref.whole Cert.Kernel.main_arg1_scv : Memref Cert.Kernel.sig Kind.scVector Space.hbm Cert.Kernel.S100000x128 EltTy.f32)
local notation "oV" => (Memref.whole Cert.Kernel.main_v0_scv : Memref Cert.Kernel.sig Kind.scVector Space.hbm Cert.Kernel.S16384x128 EltTy.f32)
local notation "sV" => (Memref.whole Cert.Kernel.cc0_scratch0 : Memref Cert.Kernel.sig Kind.scVector Space.vmem Cert.Kernel.S512 EltTy.i32)
local notation "rV" => (Memref.whole Cert.Kernel.cc0_scratch1 : Memref Cert.Kernel.sig Kind.scVector Space.vmem Cert.Kernel.S512x128 EltTy.f32)

variable [FloatOps F]

/-! ## The launch theorem's obligations -/

def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0_gather_kernel (coordsV c s)
          iV (Memref.isWhole_whole _) xV (Memref.isWhole_whole _) oV (Memref.isWhole_whole _)
          sV (Memref.isWhole_whole _) rV (Memref.isWhole_whole _) cc0_scratch2 cc0_scoped0 cc0_scoped1) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

theorem tileObl (hF : (K (F := F)).Facts) (hpre : PreOK m) : (K (F := F)).TileObl (D (F := F)) 𝒱 (P m hpre) v₀ 0 := by
  intro d c i O W hO _ _
  -- this kernel owes nothing for a protocol of its own
  simp only [show (P m hpre).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  exact (tile_body m d (coordsV ⟨_, hc.1⟩ ⟨_, hc.2⟩) hF hpre O W hO).trans (wp_mono frame _ _ fun _ => obl_post)

/-- A SparseCore's shares and blocks dealt to its sixteen tiles, and gathered back. -/
theorem vecSplit (hpre : PreOK m) : (K (F := F)).VecSplit' (P m hpre) 0 := by
  intro d c
  show iprop(iShPts m d (coreShare c.val) ∗ xShPts m d (coreShare c.val) ∗ bigSep Finset.univ fun i : Fin 16 => oChunkPts d c.val i.val (m (oLoc d)))
    ⊢ |={Set.univ}=> iprop(
      (bigSep Finset.univ fun i : Fin 16 =>
        iprop(iShPts m d (tileShare c.val i.val) ∗ xShPts m d (tileShare c.val i.val) ∗ oChunkPts d c.val i.val (m (oLoc d))))
      ∗ ((bigSep Finset.univ fun i : Fin 16 =>
          iprop(iShPts m d (tileShare c.val i.val) ∗ xShPts m d (tileShare c.val i.val) ∗ oChunkPts d c.val i.val (gathered m hpre d)))
          -∗ iprop(iShPts m d (coreShare c.val) ∗ xShPts m d (coreShare c.val) ∗ bigSep Finset.univ fun i : Fin 16 => oChunkPts d c.val i.val (gathered m hpre d))))
  rw [bigSep_sep', bigSep_sep', bigSep_sep', bigSep_sep']
  iintro ⟨Hi, Hx, Ho⟩
  ihave Hi2 := (Transfers.pointsTo_toks_split (coreShare c.val) 16) $$ Hi
  icases Hi2 with ⟨Hid, Hit⟩
  ihave Hx2 := (Transfers.pointsTo_toks_split (coreShare c.val) 16) $$ Hx
  icases Hx2 with ⟨Hxd, Hxt⟩
  imodintro
  isplitl [Hit Hxt Ho]
  · isplitl [Hit]; · iexact Hit
    isplitl [Hxt]; · iexact Hxt
    iexact Ho
  iintro ⟨Hit, Hxt, Ho⟩
  isplitl [Hid Hit]
  · iapply (Transfers.pointsTo_toks_join (coreShare c.val) 16)
    isplitl [Hid]; · iexact Hid
    iexact Hit
  isplitl [Hxd Hxt]
  · iapply (Transfers.pointsTo_toks_join (coreShare c.val) 16)
    isplitl [Hxd]; · iexact Hxd
    iexact Hxt
  iexact Ho

/-! ## The launch element: the handshakes' rounds; nothing of the kernel's own -/

def u₀ : UU := (initOf (K (F := F)).hsCells (K (F := F)).hsToks, 1)

omit [FloatOps F] in
theorem bigSep_emp' {I : Type} (s : Finset I) : (bigSep s fun _ => iprop(emp)) = (iprop(emp) : sProp 𝕄) := bigSep_emp_const s

theorem hu₀ (hpre : PreOK m) : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m hpre).x q thr) := by
  unfold u₀
  iintro Hu
  ihave H := (ownU_pair _ _) $$ Hu
  icases H with ⟨HH, -⟩
  imodintro
  isplitl [HH]; · iexact HH
  isplitr; · rw [bigSep_emp']; iempintro
  unfold P; dsimp only
  rw [show (bigSep Finset.univ fun _ : Thread nD τ => bigSep Finset.univ fun _ : Fin 1 => (iprop(emp) : sProp 𝕄)) = iprop(emp) from by
    rw [bigSep_congr fun _ _ => bigSep_emp' _, bigSep_emp']]
  iempintro

/-! ## @main on the TensorCore -/

omit [FloatOps F] in
theorem unscopedBufs_eq (d : Dev nD) (W : (b : Ref sig .tc) → Buf (Elt F) ((d.tc : Thread nD τ).loc b)) :
    (unscopedBufs d W : sProp 𝕄) = iprop((iLoc d ↦{fullShare} W main_arg0) ∗ (xLoc d ↦{fullShare} W main_arg1) ∗ oLoc d ↦{fullShare} W main_v0) := by
  unfold unscopedBufs
  rw [show (Finset.univ.filter fun b : Ref sig .tc => ¬ b.isScoped) = {main_arg0, main_arg1, main_v0} by decide,
    SparseCore.bigSep_insert' (by decide), SparseCore.bigSep_insert' (by decide), bigSep_singleton]

omit [FloatOps F] in
/-- The result whole is its 32 blocks, SparseCore by SparseCore. -/
theorem oPts_chunks (d : Dev nD) (f : Buf (Elt F) (oLoc d)) :
    (oLoc d ↦{fullShare} f : sProp 𝕄) = bigSep Finset.univ fun c : Fin 2 => bigSep Finset.univ fun i : Fin 16 => oLoc d ↦[chunkSet c.val i.val]{fullShare} f := by
  rw [← bigSep_univ_prod (fun p : Fin 2 × Fin 16 => (oLoc d ↦[chunkSet p.1.val p.2.val]{fullShare} f : sProp 𝕄)),
    ← pointsTo_biUnion Finset.univ (ℓ := oLoc d) (fun p : Fin 2 × Fin 16 => chunkSet p.1.val p.2.val) chunks_disjoint, chunks_cover]

theorem st0_eq (hpre : PreOK m) (d : Dev nD) :
    (bigSep Finset.univ fun c : Fin ((K (F := F)).nCore 0) => (P m hpre).st 0 d c)
      = iprop((bigSep Finset.univ fun c : Fin 2 => iShPts m d (coreShare c.val)) ∗ (bigSep Finset.univ fun c : Fin 2 => xShPts m d (coreShare c.val))
          ∗ bigSep Finset.univ fun c : Fin 2 => bigSep Finset.univ fun i : Fin 16 => oChunkPts d c.val i.val (m (oLoc d))) := by
  show (bigSep Finset.univ fun c : Fin 2 => iprop(iShPts m d (coreShare c.val) ∗ xShPts m d (coreShare c.val)
        ∗ bigSep Finset.univ fun i : Fin 16 => oChunkPts d c.val i.val (m (oLoc d)))) = _
  rw [bigSep_sep', bigSep_sep']
theorem dn0_eq (hpre : PreOK m) (d : Dev nD) :
    (bigSep Finset.univ fun c : Fin ((K (F := F)).nCore 0) => (P m hpre).dn 0 d c)
      = iprop((bigSep Finset.univ fun c : Fin 2 => iShPts m d (coreShare c.val)) ∗ (bigSep Finset.univ fun c : Fin 2 => xShPts m d (coreShare c.val))
          ∗ bigSep Finset.univ fun c : Fin 2 => bigSep Finset.univ fun i : Fin 16 => oChunkPts d c.val i.val (gathered m hpre d)) := by
  show (bigSep Finset.univ fun c : Fin 2 => iprop(iShPts m d (coreShare c.val) ∗ xShPts m d (coreShare c.val)
        ∗ bigSep Finset.univ fun i : Fin 16 => oChunkPts d c.val i.val (gathered m hpre d))) = _
  rw [bigSep_sep', bigSep_sep']

/-- What @main leaves the claim: the list and the table as launched, the result at the gathered rows. -/
abbrev FIN (hpre : PreOK m) (d : Dev nD) : sProp 𝕄 := iprop(iPts m d ∗ xPts m d ∗ oPts d (gathered m hpre d))

/-- @main on device `d`'s TensorCore: the one call. -/
theorem hmain (hpre : PreOK m) (κ : GSem nD τ sig → ℕ) (d : Dev nD) :
    iprop((K (F := F)).ctx EH (P m hpre) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m hpre d) := by
  unfold SparseCore.Cfg.tcRes
  rw [unscopedBufs_eq]
  simp only [main, wp_bind, wp_pure]
  iintro ⟨#Hctx, Hst, ⟨Hb, ⟨Hi, Hx, Ho⟩, -, -⟩, -⟩
  ihave Hi2 := (Transfers.pointsTo_toks_split fullShare 2) $$ Hi
  icases Hi2 with ⟨Hid, Hit⟩
  ihave Hx2 := (Transfers.pointsTo_toks_split fullShare 2) $$ Hx
  icases Hx2 with ⟨Hxd, Hxt⟩
  ihave Ho2 := (Entails.of_eq (oPts_chunks (F := F) d _)) $$ Ho
  iapply ((K (F := F)).wp_run (D (F := F)) 𝒱 (EH := EH) (P := P m hpre) κ d 0) $$ [Hst Hit Hxt Ho2 Hid Hxd]
  isplitr; · iexact Hctx
  isplitl [Hst]; · iexact Hst
  isplitl [Hit Hxt Ho2]
  · rw [st0_eq]
    isplitl [Hit]; · iexact Hit
    isplitl [Hxt]; · iexact Hxt
    iexact Ho2
  iintro ⟨Hst, Hdn⟩
  ihave Hdn' := (Entails.of_eq (dn0_eq m hpre d)) $$ Hdn
  icases Hdn' with ⟨Hit, Hxt, Ho2⟩
  imodintro
  isplitl [Hst]; · iexact Hst
  isplitl [Hid Hit]
  · iapply (Transfers.pointsTo_toks_join fullShare 2)
    isplitl [Hid]; · iexact Hid
    iexact Hit
  isplitl [Hxd Hxt]
  · iapply (Transfers.pointsTo_toks_join fullShare 2)
    isplitl [Hxd]; · iexact Hxd
    iexact Hxt
  iapply (Entails.of_eq (oPts_chunks (F := F) d _).symm); iexact Ho2

def fq (hpre : PreOK m) (d : Dev nD) (s' : Phys nD τ sig (Elt F)) : Prop :=
  s'.mem.mem (oLoc d) = gathered m hpre d ∧ s'.mem.mem (iLoc d) = m (iLoc d) ∧ s'.mem.mem (xLoc d) = m (xLoc d)

theorem hfin (hpre : PreOK m) (d : Dev nD) (s' : Phys nD τ sig (Elt F)) : iprop(FIN m hpre d ∗ SI s') ⊢ (⌜fq m hpre d s'⌝ : sProp 𝕄) := by
  iintro ⟨⟨Hi, Hx, Ho⟩, HSI⟩
  ihave H := (persistent_entails_right (SI_pointsTo_agree (st := s') (ℓ := iLoc d) (I := Finset.univ) (q := fullShare) (f := m (iLoc d)))) $$ [HSI Hi]
  · isplitl [HSI] <;> iassumption
  icases H with ⟨%h1, HSI, -⟩
  ihave H := (persistent_entails_right (SI_pointsTo_agree (st := s') (ℓ := xLoc d) (I := Finset.univ) (q := fullShare) (f := m (xLoc d)))) $$ [HSI Hx]
  · isplitl [HSI] <;> iassumption
  icases H with ⟨%h2, HSI, -⟩
  ihave H := (SI_pointsTo_agree (st := s') (ℓ := oLoc d) (I := Finset.univ) (q := fullShare) (f := gathered m hpre d)) $$ [HSI Ho]
  · isplitl [HSI] <;> iassumption
  icases H with %h3
  ipureintro; exact ⟨funext fun i => h3 i (Finset.mem_univ i), funext fun i => h1 i (Finset.mem_univ i), funext fun i => h2 i (Finset.mem_univ i)⟩

/-! ## The program's run -/

def QC (hpre : PreOK m) : PUnit × MemSt nD τ sig (Elt F) → Prop := fun r => ∀ c : Dev nD,
  r.2.mem (oLoc c) = gathered m hpre c ∧ r.2.mem (iLoc c) = m (iLoc c) ∧ r.2.mem (xLoc c) = m (xLoc c)

/-- Every weakly fair execution of the program's threads terminates, nothing faulting; at the end the result holds the
    table's rows the list names, and the list and the table are as launched. -/
theorem run_main [∀ e, Nonempty (Elt F e)] (hpre : PreOK m) :
    θ_run (Cert.Kernel.defs (F := F)) (Cert.Kernel.threads (F := F)) ⟨m, fun _ => 0, ρ⟩ (QC m hpre) :=
  SparseCore.Cfg.θ_run_sc (K := K (F := F)) (D := D (F := F)) (𝒱 := 𝒱) (EH := EH) (P := P m hpre) facts v₀
    (fun q hq => match q with | 0 => nomatch hq)
    (fun q _ => match q with | 0 => tileObl m facts hpre)
    (fun q _ => match q with | 0 => SparseCore.Cfg.VecSplit.of_plain (vecSplit m hpre))
    m ρ main (fun _ => iprop(emp)) (FIN m hpre) (u₀ (F := F)) (sep_elim_left.trans (hu₀ m hpre)) (hmain m ρ hpre) (fq m hpre) (hfin m hpre) (QC m hpre) (fun _ h => h)

end Cert.Proof.BitsGather

end
-- ==== Proof.PreRange.lean ====
/-
  The index range read back from the precondition.

  The precondition ends in `jnp.all((0 ≤ x) & (x ≤ 99999))`, conjoined with a finiteness test of the table.
  From the whole predicate being 1 we recover, for every index word, that it lies in [0, 99999] as a signed
  32-bit integer, hence that its unsigned value is below 100000.
-/
import proofs.«203850_g42984032698415_cont_8to1_b_851_13_alg».proof.Pre_input_domain
import proofs.«203850_g42984032698415_cont_8to1_b_851_13_alg».proof.Proof.Gen.Pre_input_domain
import Idealize.ShloMosaic.Lib.ReduceAll
import Idealize.ShloMosaic.Lib.ValueIdx

namespace Cert.Proof.PreRange

open Idealize.ShloMosaic

/-- The rank-0 shape has exactly one index. -/
instance : Subsingleton Cert.Pre_input_domain.S_.Idx := ⟨fun a b => funext fun d => d.elim0⟩

/-- A 32-bit word that is at least 0 and at most 99999 as a signed integer has unsigned value below 100000. -/
theorem toNat_lt_of_signed_range (v : BitVec 32)
    (h0 : (0#32 : BitVec 32).toInt ≤ v.toInt) (h1 : v.toInt ≤ (99999#32 : BitVec 32).toInt) : v.toNat < 100000 := by
  simp only [BitVec.toInt_eq_toNat_cond, BitVec.toNat_ofNat, Nat.reducePow, Nat.reduceMod] at h0 h1
  omega

/-- Under the precondition every index word is, as a natural number, below the number of table rows. -/
theorem idx_lt {F : FTy → Type} [FloatOps F] (fi : IVec Cert.Pre_input_domain.S16384 32)
    (ft : FVec F Cert.Pre_input_domain.S100000x128 .f32)
    (h : Cert.Pre_input_domain.fn (F := F) fi ft = fun _ => 1#1) : ∀ j, (fi j).toNat < 100000 := by
  intro j
  have e := congrFun h ValueIdx.ix0
  dsimp only [Cert.Pre_input_domain.fn] at e
  -- the outer conjunction: keep the index half
  have e2 := (IntOp.andi_eq_one.1 e).2
  -- the all-reduce by `and`: every element is 1
  have e3 := Host.reduce_andi_all _ _ _ _ _ e2 j
  -- the element: (0 ≤ x j) & (x j ≤ 99999)
  obtain ⟨hge, hle⟩ := IntOp.andi_eq_one.1 e3
  exact toNat_lt_of_signed_range (fi j) (IntOp.cmpi_sge.1 hge) (IntOp.cmpi_sle.1 hle)

end Cert.Proof.PreRange
-- ==== Proof.LibHostCalls.lean ====
/-
  Two general facts for reading back, by hand, the run of a host program that calls module-local functions.

  The operations of an inlined callee are built over typed references, which carry contents to the buffer's own type and
  back; after the run's fold is unfolded every intermediate value sits inside such a round trip. The round trip is the
  identity, for ANY typed reference (no computation on the reference is needed), so one rewriting pass removes them all;
  leaving them to a single definitional check costs time and memory that grow with the nesting (at shapes of a hundred
  million elements, gigabytes). And the contents after two lines of operations run in a row are the second line's from
  the first's, which lets a long line be read in pieces.
-/
import Idealize.ShloMosaic.Lib.StableHlo.Run

noncomputable section

namespace Cert.LibHostCalls

open Idealize.ShloMosaic Idealize.ShloMosaic.StableHlo

variable {τ : Topo} {sig : RefSig} {Val : EltTy → Type}

/-- Contents carried to a typed reference's buffer and back are the contents. -/
theorem ofBuf_toBuf {T : BufTy} (x : TRef sig T) (v : T.Contents Val) : x.ofBuf (x.toBuf v) = v := by
  obtain ⟨r, h, h1, h2⟩ := x
  subst h
  rfl

/-- The contents after two lines of operations in a row are the second line's from the first's. -/
theorem after_append (l₁ l₂ : List (HloOp τ sig Val)) (V : Valuation τ sig Val) :
    after (l₁ ++ l₂) V = after l₂ (after l₁ V) := by
  induction l₁ generalizing V with
  | nil => rfl
  | cons op l ih => exact ih _

end Cert.LibHostCalls

end
-- ==== Proof.RefOps.lean ====
/-
  The reference program's @main as a straight line of host operations, and its run.

  @main calls the row-take function, which in turn calls the select function; unfolding both calls at their sites
  leaves one chain of 23 host operations over the buffers the calls name. Every weakly fair execution of that
  chain terminates with the result buffer at the operations' composed pure term `refOut` of the two arguments'
  launch contents, and the arguments unchanged.
-/
import proofs.«203850_g42984032698415_cont_8to1_b_851_13_alg».proof.Proof.Gen.ReferenceIdeal
import proofs.«203850_g42984032698415_cont_8to1_b_851_13_alg».proof.Proof.LibHostCalls
import Idealize.ShloMosaic.Lib.StableHlo.Run

noncomputable section

namespace Cert.Proof.RefOps

open Cert.ReferenceIdeal Cert.ReferenceIdeal.Gen Idealize.ShloMosaic Idealize.ShloMosaic.TcCoe Idealize.SL.Sem
  Idealize.ShloMosaic.StableHlo

variable {F : FTy → Type} [FloatOps F]

/-! ## The composed term -/

/-- The indices with the negative ones wrapped around by the number of rows: `where(x < 0, x + 100000, x)`. -/
def wrapIdx (x : IVec S16384 32) : IVec S16384 32 :=
  select (cmpi .slt x (broadcastInDim S16384 ![] bcast_S_S16384 (constantI S_ 32 0#32)))
    (addi x (broadcastInDim S16384 ![] bcast_S_S16384 (constantI S_ 32 100000#32))) x

/-- The wrapped indices as a column `[16384, 1]`: the gather's start indices. -/
def colIdx (x : IVec S16384 32) : IVec S16384x1 32 :=
  broadcastInDim S16384x1 ![0] bcast_S16384_S16384x1_0 (wrapIdx x)

/-- The elementwise test `(0 ≤ i) & (i ≤ 99999)` on the column of start indices. -/
def inRangeCol (x : IVec S16384 32) : IVec S16384x1 1 :=
  andi (cmpi .sge (colIdx x) (broadcastInDim S16384x1 ![] bcast_S_S16384x1 (constantI S_ 32 0#32)))
    (cmpi .sle (colIdx x)
      (broadcastInDim S16384x1 ![0, 1] bcast_S1x1_S16384x1_0_1
        (broadcastInDim S1x1 ![1] bcast_S1_S1x1_1 (constantI S1 32 99999#32))))

/-- The per-row mask: the test reduced by `and` over the column axis. -/
def inRange (x : IVec S16384 32) : IVec S16384 1 :=
  Host.reduce IntOp.andi (inRangeCol x) (constantI S_ 1 1#1) reducesTo_S16384x1_S16384_d1 h_S_

/-- The gathered rows. -/
def gathered (x : IVec S16384 32) (t : FVec F S100000x128 .f32) : FVec F S16384x128 .f32 :=
  Host.gather gather_S100000x128_S16384x1_S16384x128_1_0_n_n_0_1_1128 t (colIdx x)

/-- The reference's result as a function of its two arguments: the gathered rows where the mask holds, the fill
    constant elsewhere. -/
def refOut (x : IVec S16384 32) (t : FVec F S100000x128 .f32) : FVec F S16384x128 .f32 :=
  select (broadcastInDim S16384x128 ![0] bcast_S16384_S16384x128_0 (inRange x)) (gathered x t)
    (broadcastInDim S16384x128 ![] bcast_S_S16384x128 (constant S_ .f32 0x7FC00000#32))

/-! ## The operations -/

/-- @main's 23 operations, in order: the row-take function's, with the select function's one operation at its
    call site, over the buffers of the two calls' records. -/
abbrev ops : List (HloOp τ sig (Elt F)) :=
  [ TRef.nullary main_call0.c (constantI S_ 32 0#32),
    TRef.unary main_call0.c main_call0.v0 (broadcastInDim S16384 ![] bcast_S_S16384),
    TRef.binary (.of main_arg0) main_call0.v0 main_call0.v1 (cmpi .slt),
    TRef.nullary main_call0.c_0 (constantI S_ 32 100000#32),
    TRef.unary main_call0.c_0 main_call0.v2 (broadcastInDim S16384 ![] bcast_S_S16384),
    TRef.binary (.of main_arg0) main_call0.v2 main_call0.v3 addi,
    TRef.ternary main_call0.v1 main_call0.v3 (.of main_arg0) main_call0.call0.v0 select,
    TRef.unary main_call0.call0.v0 main_call0.v5 (broadcastInDim S16384x1 ![0] bcast_S16384_S16384x1_0),
    TRef.nullary main_call0.c_1 (constantI S1 32 99999#32),
    TRef.nullary main_call0.c_2 (constantI S_ 32 0#32),
    TRef.unary main_call0.c_2 main_call0.v6 (broadcastInDim S16384x1 ![] bcast_S_S16384x1),
    TRef.binary main_call0.v5 main_call0.v6 main_call0.v7 (cmpi .sge),
    TRef.unary main_call0.c_1 main_call0.v8 (broadcastInDim S1x1 ![1] bcast_S1_S1x1_1),
    TRef.unary main_call0.v8 main_call0.v9 (broadcastInDim S16384x1 ![0, 1] bcast_S1x1_S16384x1_0_1),
    TRef.binary main_call0.v5 main_call0.v9 main_call0.v10 (cmpi .sle),
    TRef.binary main_call0.v7 main_call0.v10 main_call0.v11 andi,
    TRef.nullary main_call0.c_3 (constantI S_ 1 1#1),
    TRef.binary main_call0.v11 main_call0.c_3 main_call0.v12
      (fun x v => Host.reduce IntOp.andi x v reducesTo_S16384x1_S16384_d1 h_S_),
    TRef.binary (.of main_arg1) main_call0.v5 main_call0.v13
      (fun x i => Host.gather gather_S100000x128_S16384x1_S16384x128_1_0_n_n_0_1_1128 x i),
    TRef.unary main_call0.v12 main_call0.v14 (broadcastInDim S16384x128 ![0] bcast_S16384_S16384x128_0),
    TRef.nullary main_call0.cst (constant S_ .f32 0x7FC00000#32),
    TRef.unary main_call0.cst main_call0.v15 (broadcastInDim S16384x128 ![] bcast_S_S16384x128),
    TRef.ternary main_call0.v14 main_call0.v13 main_call0.v15 main_call0.v16 select ]

set_option maxRecDepth 1024 in
/-- @main is that straight line: the two functions' definitions unfolded at their calls, both sides are one chain
    of host steps once sequencing is reassociated. -/
theorem main_eq (c : Dev nD) : main (F := F) c = seq ops := by
  simp only [main, fn_take.body, fn_where.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨nullary_bufs_sub .., unary_bufs_sub .., binary_bufs_sub .., nullary_bufs_sub .., unary_bufs_sub .., binary_bufs_sub ..,
    ternary_bufs_sub .., unary_bufs_sub .., nullary_bufs_sub .., nullary_bufs_sub .., unary_bufs_sub .., binary_bufs_sub ..,
    unary_bufs_sub .., unary_bufs_sub .., binary_bufs_sub .., binary_bufs_sub .., nullary_bufs_sub .., binary_bufs_sub ..,
    binary_bufs_sub .., unary_bufs_sub .., nullary_bufs_sub .., unary_bufs_sub .., ternary_bufs_sub ..⟩

/-! ## What the buffers hold after the line -/

attribute [local irreducible] Host.reduce Host.gather in
/-- The fold at the result buffer is `refOut` of the arguments: each operation's result is read at the buffer it
    writes and at any other buffer what was there; the typed references' round trips (contents carried to the
    buffer's own type and back) are the identity; what is left is the composed term, up to the casts at the literal
    argument and result references, which compute. The reduction and the gather are kept folded meanwhile: the
    equation never looks inside them. -/
theorem out_eq (V : Valuation τ sig (Elt F)) :
    after ops V (main_v0 : DevRef τ sig) = refOut (V (main_arg0 : DevRef τ sig)) (V (main_arg1 : DevRef τ sig)) := by
  after_results
  simp only [Cert.LibHostCalls.ofBuf_toBuf]
  rfl

/-- No operation writes the index argument. -/
theorem arg0_eq (V : Valuation τ sig (Elt F)) :
    after ops V (main_arg0 : DevRef τ sig) = V (main_arg0 : DevRef τ sig) := by
  after_results

/-- No operation writes the table argument. -/
theorem arg1_eq (V : Valuation τ sig (Elt F)) :
    after ops V (main_arg1 : DevRef τ sig) = V (main_arg1 : DevRef τ sig) := by
  after_results

/-! ## The run -/

/-- On every device, for any float values, from any memory with zero counters: every weakly fair execution of @main
    terminates with the result at `refOut` of the arguments' launch contents and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v0)
          = refOut (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c main_v0).trans (out_eq _), (h c main_arg0).trans (arg0_eq _),
      (h c main_arg1).trans (arg1_eq _)⟩)
    (run_seq scopedRefs_eq scopedSems_eq defs main (fun _ => ops) main_eq (fun _ => ops_sub) m ρ)

end Cert.Proof.RefOps

end
-- ==== Proof.LibTakeRows.lean ====
/-
  `stablehlo.gather` of whole rows of a rank-2 operand, read at an index.

  What `jnp.take(x, idx, axis=0)` of a table `x : [N, C]` at an integer vector `idx : [R]` lowers to: a gather with
  offset_dims `[1]`, collapsed_slice_dims `[0]`, start_index_map `[0]`, index_vector_dim 1 and slice_sizes `[1, C]`
  over the indices broadcast to `[R, 1]`. This file proves, for all `N`, `R`, `C`, that result element `(r, c)` is the
  operand at row `idx[r, 0]` — read as a signed integer and clamped into `[0, N − 1]`, as the gather clamps every
  start index — and column `c` (`gather_rows_apply`); and that for a start index whose unsigned value is already
  below `N` (with `N` below half the word range) the clamp is the identity (`gather_rows_apply_of_lt`).
-/
import Idealize.ShloMosaic.Lib.ValueIdx

noncomputable section

namespace Cert.LibTakeRows

open Idealize.ShloMosaic Idealize.ShloMosaic.ValueIdx

variable {α : Type}

/-- The dimension numbers of a row gather for an operand `[N, C]`, start indices `[R, 1]` and result `[R, C]`; their
    conditions `wf` are decided on a program's literal shapes. -/
abbrev rowsDims (N R C : Nat)
    (wf : GatherDims.WF ⟨2, ![N, C]⟩ ⟨2, ![R, 1]⟩ ⟨2, ![R, C]⟩ [1] [0] [] [0] [] 1 ![1, C]) :
    GatherDims ⟨2, ![N, C]⟩ ⟨2, ![R, 1]⟩ ⟨2, ![R, C]⟩ where
  offsetDims := [1]
  collapsedSliceDims := [0]
  operandBatchingDims := []
  startIndicesBatchingDims := []
  startIndexMap := [0]
  indexVectorDim := 1
  sliceSizes := ![1, C]
  wf := wf

/-- The start-indices index `[r, 0]` of result index `(r, c)`. -/
abbrev rowIdx {R C : Nat} (y : (⟨2, ![R, C]⟩ : Shape).Idx) : (⟨2, ![R, 1]⟩ : Shape).Idx :=
  ix2 (⟨(y 0).val, idx2_lt0 y⟩ : Fin R) (⟨0, Nat.one_pos⟩ : Fin 1)

/-- THE ROW GATHER READ AT `(r, c)`: the operand at row `idx[r, 0]`, read signed and clamped into `[0, N − 1]`,
    and column `c`. -/
theorem gather_rows_apply {N R C w : Nat} (hN : 0 < N)
    (wf : GatherDims.WF ⟨2, ![N, C]⟩ ⟨2, ![R, 1]⟩ ⟨2, ![R, C]⟩ [1] [0] [] [0] [] 1 ![1, C])
    (x : (⟨2, ![N, C]⟩ : Shape).Idx → α) (idx : IVec ⟨2, ![R, 1]⟩ w) (y : (⟨2, ![R, C]⟩ : Shape).Idx) :
    Host.gather (rowsDims N R C wf) x idx y
      = x (ix2 (⟨min (idx (rowIdx y)).toInt.toNat (N - 1), by omega⟩ : Fin N) (⟨(y 1).val, idx2_lt1 y⟩ : Fin C)) := by
  unfold Host.gather
  congr 1
  funext a
  refine Fin.ext ?_
  match a with
  | ⟨0, _⟩ =>
    -- the collapsed axis: the clamped start index, no batching, no offset
    show (rowsDims N R C wf).start y idx 0 + (rowsDims N R C wf).batchCoord y 0 + (rowsDims N R C wf).offCoord y 0
      = min (idx (rowIdx y)).toInt.toNat (N - 1)
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowsDims N R C wf).startIndexMap from List.mem_singleton.mpr rfl)]
    have hsi : (rowsDims N R C wf).siIdx y ⟨List.idxOf (0 : Fin 2) (rowsDims N R C wf).startIndexMap,
        List.idxOf_lt_length_iff.2 (List.mem_singleton.mpr rfl)⟩ = rowIdx y := by
      funext b; refine Fin.ext ?_
      match b with
      | ⟨0, _⟩ => rfl
      | ⟨1, _⟩ => rfl
    rw [hsi]
    rfl
  | ⟨1, _⟩ =>
    -- the offset axis: no start (not in the start index map), no batching, the result's column
    show (rowsDims N R C wf).start y idx 1 + (rowsDims N R C wf).batchCoord y 1 + (rowsDims N R C wf).offCoord y 1
      = (y 1).val
    have h1 : (1 : Fin 2) ∉ (rowsDims N R C wf).startIndexMap := show (1 : Fin 2) ∉ [(0 : Fin 2)] by decide
    have hk : (1 : Fin 2) ∈ (rowsDims N R C wf).sKept :=
      (GatherDims.mem_sKept _ _).mpr ⟨show (1 : Fin 2) ∉ [(0 : Fin 2)] by decide, List.not_mem_nil⟩
    rw [GatherDims.batchCoord_eq_zero _ _ _ List.not_mem_nil]
    unfold GatherDims.start GatherDims.offCoord
    rw [dif_neg h1, dif_pos hk]
    simp only [Nat.add_zero, Nat.zero_add]
    rfl

/-- A word whose unsigned value is below `N`, with `2 N` at most the word range, reads signed as that value, and the
    clamp into `[0, N − 1]` leaves it. -/
theorem clamp_of_toNat_lt {w N : Nat} (v : BitVec w) (hN : 2 * N ≤ 2 ^ w) (hv : v.toNat < N) :
    min v.toInt.toNat (N - 1) = v.toNat := by
  have h : v.toInt = (v.toNat : Int) := by
    rw [BitVec.toInt_eq_toNat_cond, if_pos (by omega)]
  rw [h, Int.toNat_natCast]
  omega

/-- THE ROW GATHER AT IN-RANGE INDICES: where the start index `idx[r, 0]` has unsigned value below `N` (and `2 N` is
    at most the word range, so that it is non-negative as a signed word), result element `(r, c)` is the operand at
    exactly that row, column `c`. -/
theorem gather_rows_apply_of_lt {N R C w : Nat} (hN2 : 2 * N ≤ 2 ^ w)
    (wf : GatherDims.WF ⟨2, ![N, C]⟩ ⟨2, ![R, 1]⟩ ⟨2, ![R, C]⟩ [1] [0] [] [0] [] 1 ![1, C])
    (x : (⟨2, ![N, C]⟩ : Shape).Idx → α) (idx : IVec ⟨2, ![R, 1]⟩ w) (y : (⟨2, ![R, C]⟩ : Shape).Idx)
    (hlt : (idx (rowIdx y)).toNat < N) :
    Host.gather (rowsDims N R C wf) x idx y
      = x (ix2 (⟨(idx (rowIdx y)).toNat, hlt⟩ : Fin N) (⟨(y 1).val, idx2_lt1 y⟩ : Fin C)) := by
  rw [gather_rows_apply (by omega) wf x idx y]
  congr 2
  exact Fin.ext (clamp_of_toNat_lt _ hN2 hlt)

end Cert.LibTakeRows

end
-- ==== Proof.LibAllOnes.lean ====
/-
  A reduce by `and` of an array of ones, from one, is one.

  The converse of reading a `jnp.all` back: where every element of an `i1` array is 1 and the initial value is 1, a
  one-operand `stablehlo.reduce` of it by `and` — over any axes, into any result shape — is 1 at every result index
  (`reduce_andi_of_all_one`). Used to show that a mask computed by such a reduce is all true.
-/
import Idealize.ShloMosaic.Lib.Affine
import Idealize.ShloMosaic.PureOps.Reduce

namespace Cert.LibAllOnes

open Idealize.ShloMosaic

/-- A left fold by `and` over `i1` words that are all 1, started at 1, is 1. -/
theorem foldl_andi_of_all_one {ι : Type} (f : ι → BitVec 1) (hf : ∀ n, f n = 1#1) :
    ∀ l : List ι, l.foldl (fun r n => IntOp.andi r (f n)) 1#1 = 1#1
  | [] => rfl
  | a :: l => by
    rw [List.foldl_cons, hf a, show IntOp.andi 1#1 1#1 = 1#1 from by decide]
    exact foldl_andi_of_all_one f hf l

variable {s t u : Shape} {axes : List (Fin s.rank)}

/-- A `stablehlo.reduce` by `and` from the initial value 1 of an array whose every element is 1 is 1 everywhere. -/
theorem reduce_andi_of_all_one (x : s.Idx → BitVec 1) (init : u.Idx → BitVec 1) (h : s.ReducesTo axes t)
    (hu : 0 < u.numel) (hinit : init (Shape.Idx.first hu) = 1#1) (hx : ∀ i, x i = 1#1) (j : t.Idx) :
    Host.reduce IntOp.andi x init h hu j = 1#1 := by
  rw [Host.reduce_eq_foldl, hinit]
  exact foldl_andi_of_all_one x hx _

end Cert.LibAllOnes
-- ==== Proof.RefValue.lean ====
/-
  The reference's composed term, read index by index under the index range.

  Where every index word has unsigned value below the number of rows (100000, far below 2³¹): no index is negative
  as a signed word, so the wrap-around branch is never taken; every index passes the range test, so the mask is all
  true and the fill constant is never selected; and the gather's clamp of the start index into [0, 99999] is the
  identity. The result at (r, c) is therefore the table at row x[r], column c.
-/
import proofs.«203850_g42984032698415_cont_8to1_b_851_13_alg».proof.Proof.RefOps
import proofs.«203850_g42984032698415_cont_8to1_b_851_13_alg».proof.Proof.LibTakeRows
import proofs.«203850_g42984032698415_cont_8to1_b_851_13_alg».proof.Proof.LibAllOnes
import Idealize.ShloMosaic.Lib.Pipeline.Value

noncomputable section

namespace Cert.Proof.RefValue

open Cert.ReferenceIdeal Cert.ReferenceIdeal.Gen Cert.Proof.RefOps Idealize.ShloMosaic Idealize.ShloMosaic.ValueIdx
  Cert.LibTakeRows

variable {F : FTy → Type} [FloatOps F]

/-- A word with unsigned value below 100000 reads signed as that value. -/
theorem toInt_of_lt (v : BitVec 32) (h : v.toNat < 100000) : v.toInt = (v.toNat : Int) := by
  rw [BitVec.toInt_eq_toNat_cond, if_pos (by omega)]

/-- An in-range index is not negative, so the wrap-around leaves it. -/
theorem wrapIdx_apply (x : IVec S16384 32) (i : S16384.Idx) (h : (x i).toNat < 100000) : wrapIdx x i = x i := by
  show Scalar.select (IntOp.cmpi .slt (x i) 0#32) (IntOp.addi (x i) 100000#32) (x i) = x i
  have hneg : IntOp.cmpi .slt (x i) 0#32 = 0#1 := by
    refine eq_zero_of_ne_one fun e => ?_
    have := IntOp.cmpi_slt.1 e
    rw [toInt_of_lt _ h] at this
    simp only [BitVec.toInt_eq_toNat_cond, BitVec.toNat_ofNat, Nat.reducePow, Nat.reduceMod] at this
    omega
  rw [hneg, select_zero]

/-- The column of start indices at `[r, 0]` is the wrapped index at `r`. -/
theorem colIdx_apply (x : IVec S16384 32) (i : S16384x1.Idx) :
    colIdx x i = wrapIdx x (ix1 (⟨(i 0).val, idx2_lt0 i⟩ : Fin 16384)) := by
  unfold colIdx
  exact broadcastInDim_apply _ _ _ i _ (fun a => match a with | ⟨0, _⟩ => rfl)

/-- Under the index range the column of start indices at `[r, 0]` is the index at `r`. -/
theorem colIdx_eq (x : IVec S16384 32) (hx : ∀ j : S16384.Idx, (x j).toNat < 100000) (i : S16384x1.Idx) :
    colIdx x i = x (ix1 (⟨(i 0).val, idx2_lt0 i⟩ : Fin 16384)) :=
  (colIdx_apply x i).trans (wrapIdx_apply x _ (hx _))

/-- Under the index range every start index passes the test `(0 ≤ i) & (i ≤ 99999)`. -/
theorem inRangeCol_eq_one (x : IVec S16384 32) (hx : ∀ j : S16384.Idx, (x j).toNat < 100000) (i : S16384x1.Idx) :
    inRangeCol x i = 1#1 := by
  show IntOp.andi (IntOp.cmpi .sge (colIdx x i) 0#32) (IntOp.cmpi .sle (colIdx x i) 99999#32) = 1#1
  rw [colIdx_eq x hx i]
  have h := hx (ix1 (⟨(i 0).val, idx2_lt0 i⟩ : Fin 16384))
  refine IntOp.andi_eq_one.2 ⟨IntOp.cmpi_sge.2 ?_, IntOp.cmpi_sle.2 ?_⟩
  · rw [toInt_of_lt _ h]
    simp only [BitVec.toInt_eq_toNat_cond, BitVec.toNat_ofNat, Nat.reducePow, Nat.reduceMod]
    omega
  · rw [toInt_of_lt _ h]
    simp only [BitVec.toInt_eq_toNat_cond, BitVec.toNat_ofNat, Nat.reducePow, Nat.reduceMod]
    omega

/-- Under the index range the per-row mask is all true. -/
theorem inRange_eq_one (x : IVec S16384 32) (hx : ∀ j : S16384.Idx, (x j).toNat < 100000) (r : S16384.Idx) :
    inRange x r = 1#1 :=
  Cert.LibAllOnes.reduce_andi_of_all_one _ _ _ _ rfl (inRangeCol_eq_one x hx) r

/-- The program's gather record is the row gather's, at its literal shapes. -/
theorem gather_eq_rowsDims :
    gather_S100000x128_S16384x1_S16384x128_1_0_n_n_0_1_1128
      = rowsDims 100000 16384 128 gather_S100000x128_S16384x1_S16384x128_1_0_n_n_0_1_1128_wf := rfl

/-- Under the index range the gathered rows at `(r, c)` are the table at row `x[r]`, column `c`. -/
theorem gathered_apply (x : IVec S16384 32) (t : FVec F S100000x128 .f32)
    (hx : ∀ j : S16384.Idx, (x j).toNat < 100000) (r : Fin 16384) (c : Fin 128) :
    gathered x t (ix2 r c) = t (ix2 (⟨(x (ix1 r)).toNat, hx _⟩ : Fin 100000) c) := by
  have hcol : colIdx x (rowIdx (ix2 r c : S16384x128.Idx)) = x (ix1 r) := colIdx_eq x hx _
  unfold gathered
  rw [gather_eq_rowsDims]
  rw [gather_rows_apply_of_lt (by norm_num) _ t (colIdx x) (ix2 r c) (by rw [hcol]; exact hx _)]
  refine congrArg t ?_
  exact congrArg₂ (ix2 (n0 := 100000) (n1 := 128)) (Fin.ext (congrArg BitVec.toNat hcol)) rfl

/-- The composed term read at an index: a select on the mask's bit there. -/
theorem refOut_apply (x : IVec S16384 32) (t : FVec F S100000x128 .f32) (j : S16384x128.Idx) :
    refOut x t j
      = Scalar.select (broadcastInDim S16384x128 ![0] bcast_S16384_S16384x128_0 (inRange x) j) (gathered x t j)
          (broadcastInDim S16384x128 ![] bcast_S_S16384x128 (constant S_ .f32 0x7FC00000#32) j) := rfl

/-- Under the index range the mask broadcast along the rows is all true. -/
theorem mask_eq_one (x : IVec S16384 32) (hx : ∀ j : S16384.Idx, (x j).toNat < 100000) (j : S16384x128.Idx) :
    broadcastInDim S16384x128 ![0] bcast_S16384_S16384x128_0 (inRange x) j = 1#1 := by
  unfold broadcastInDim
  exact inRange_eq_one x hx _

/-- THE REFERENCE'S VALUE: under the index range the composed term is the table's rows at the indices. -/
theorem refOut_eq (x : IVec S16384 32) (t : FVec F S100000x128 .f32) (hx : ∀ j : S16384.Idx, (x j).toNat < 100000) :
    refOut x t = fun (j : S16384x128.Idx) => t (ix2 (⟨(x (ix1 (j 0))).toNat, hx _⟩ : Fin 100000) (j 1)) := by
  funext j
  obtain ⟨r, c, rfl⟩ : ∃ (r : Fin 16384) (c : Fin 128), j = ix2 r c := ⟨j 0, j 1, eq_ix2 j⟩
  rw [refOut_apply, mask_eq_one x hx, select_one, gathered_apply x t hx r c]

end Cert.Proof.RefValue

end
-- ==== Proof.RefRun.lean ====
/-
  The reference's run with its value.

  Under the index range (every index word, as a natural number, below the number of table rows) every weakly fair
  execution of the reference's @main terminates, the two arguments end unchanged, and the result at (j, k) is the
  table at row x[j], column k: the run of the straight line of host operations ends at their composed term, and
  under the range that term is the rows of the table at the indices.
-/
import proofs.«203850_g42984032698415_cont_8to1_b_851_13_alg».proof.Proof.RefOps
import proofs.«203850_g42984032698415_cont_8to1_b_851_13_alg».proof.Proof.RefValue

noncomputable section

open Idealize.ShloMosaic Idealize.SL.Sem Cert.ReferenceIdeal in
/-- Every weakly fair execution of the reference terminates with the gathered rows in the result buffer and the
    arguments unchanged. -/
theorem Cert.Proof.RefGather.run (m' : (ℓ : Loc nD τ sig) → Buf (Elt Ideal) ℓ) (ρ' : Dev nD → PrngReg)
    (hpre : ∀ (c : Dev nD) (j : S16384.Idx), (m' ((c.tc : Thread nD τ).loc main_arg0) j).toNat < 100000) :
    θ_run (Cert.ReferenceIdeal.defs (F := Ideal)) (onTc (τ := τ) (Cert.ReferenceIdeal.main (F := Ideal))) ⟨m', fun _ => 0, ρ'⟩
      (fun r => ∀ c : Dev nD,
        r.2.mem ((c.tc : Thread nD τ).loc main_v0)
          = (fun (j : S16384x128.Idx) => m' ((c.tc : Thread nD τ).loc main_arg1)
              (ValueIdx.ix2 (⟨(m' ((c.tc : Thread nD τ).loc main_arg0) (ValueIdx.ix1 (j 0))).toNat, hpre c _⟩ : Fin 100000) (j 1)))
        ∧ r.2.mem ((c.tc : Thread nD τ).loc main_arg0) = m' ((c.tc : Thread nD τ).loc main_arg0)
        ∧ r.2.mem ((c.tc : Thread nD τ).loc main_arg1) = m' ((c.tc : Thread nD τ).loc main_arg1)) :=
  (θ_run _ _ _).mono
    (fun _ h c => ⟨(h c).1.trans (Cert.Proof.RefValue.refOut_eq _ _ (hpre c)), (h c).2.1, (h c).2.2⟩)
    (Cert.Proof.RefOps.run (F := Ideal) m' ρ')

end
-- ==== Proof.lean ====
/-
  The certificate of the row-gather kernel against `jnp.take(table, x, axis=0)`.

  Both programs compute result[j, k] = table[x[j], k] for 16384 indices into a table of 100000 rows of 128 floats, on the
  inputs the precondition admits: every index between 0 and 99999. The kernel does it on the 32 vector subcores, tile s
  of SparseCore c fetching entries [512·(2s+c), 512·(2s+c)+512) of the list, gathering the rows they name and writing
  them to the same rows of the result; the reference wraps negative indices, gathers with the start index clamped into
  the table and masks out-of-range rows — on indices in range none of the three changes anything. No arithmetic is done
  on the floats, so the two results are equal entry by entry as extended reals, and equally at the word level.
-/
import proofs.«203850_g42984032698415_cont_8to1_b_851_13_alg».proof.Defs
import proofs.«203850_g42984032698415_cont_8to1_b_851_13_alg».proof.Proof.Gen.Kernel
import proofs.«203850_g42984032698415_cont_8to1_b_851_13_alg».proof.Proof.Gen.Kernel.Skeleton
import proofs.«203850_g42984032698415_cont_8to1_b_851_13_alg».proof.Proof.Gen.KernelIdeal
import proofs.«203850_g42984032698415_cont_8to1_b_851_13_alg».proof.Proof.Gen.KernelIdeal.Skeleton
import proofs.«203850_g42984032698415_cont_8to1_b_851_13_alg».proof.Proof.Gen.ReferenceIdeal
import proofs.«203850_g42984032698415_cont_8to1_b_851_13_alg».proof.Proof.Gen.Pre_input_domain
import proofs.«203850_g42984032698415_cont_8to1_b_851_13_alg».proof.Proof.IdealLaunch
import proofs.«203850_g42984032698415_cont_8to1_b_851_13_alg».proof.Proof.BitsLaunch
import proofs.«203850_g42984032698415_cont_8to1_b_851_13_alg».proof.Proof.PreRange
import proofs.«203850_g42984032698415_cont_8to1_b_851_13_alg».proof.Proof.RefRun
import Idealize.ShloMosaic.Adequacy
import Idealize.ShloMosaic.Init

noncomputable section

namespace Cert.Proof

open Idealize.ShloMosaic Idealize.SL.Sem

/-- Under the precondition every index names a row of the table (the word-level program's launch memory), -/
theorem ok_bits (m : (ℓ : Loc Cert.Kernel.nD Cert.Kernel.τ Cert.Kernel.sig) → Buf (Elt Bits) ℓ) (h : Cert.Pre_Kernel m) :
    BitsGather.PreOK (F := Bits) m :=
  fun d j => PreRange.idx_lt (F := Bits) (m (BitsGather.iLoc d)) (m (BitsGather.xLoc d)) (h d) j

/-- (the idealized program's), -/
theorem ok_ideal (m : (ℓ : Loc Cert.KernelIdeal.nD Cert.KernelIdeal.τ Cert.KernelIdeal.sig) → Buf (Elt Ideal) ℓ) (h : Cert.Pre_KernelIdeal m) :
    IdealGather.PreOK (F := Ideal) m :=
  fun d j => PreRange.idx_lt (F := Ideal) (m (IdealGather.iLoc d)) (m (IdealGather.xLoc d)) (h d) j

/-- (the reference's). -/
theorem ok_ref (m : (ℓ : Loc Cert.ReferenceIdeal.nD Cert.ReferenceIdeal.τ Cert.ReferenceIdeal.sig) → Buf (Elt Ideal) ℓ) (h : Cert.Pre_ReferenceIdeal m) :
    ∀ (c : Dev Cert.ReferenceIdeal.nD) (j : Cert.ReferenceIdeal.S16384.Idx),
      (m ((c.tc : Thread Cert.ReferenceIdeal.nD Cert.ReferenceIdeal.τ).loc Cert.ReferenceIdeal.main_arg0) j).toNat < 100000 :=
  fun c j => PreRange.idx_lt (F := Ideal) (m ((c.tc : Thread Cert.ReferenceIdeal.nD Cert.ReferenceIdeal.τ).loc Cert.ReferenceIdeal.main_arg0))
    (m ((c.tc : Thread Cert.ReferenceIdeal.nD Cert.ReferenceIdeal.τ).loc Cert.ReferenceIdeal.main_arg1)) (h c) j

/-- The gathered rows depend only on the list and the table. -/
theorem gather_congr {α : Type} {fi fi' : Cert.KernelIdeal.S16384.Idx → BitVec 32} {ft ft' : Cert.KernelIdeal.S100000x128.Idx → α}
    (h : ∀ j, (fi j).toNat < 100000) (h' : ∀ j, (fi' j).toNat < 100000) (ei : fi' = fi) (et : ft' = ft) :
    (fun (j : Cert.KernelIdeal.S16384x128.Idx) => ft' (ValueIdx.ix2 (⟨(fi' (ValueIdx.ix1 (j 0))).toNat, h' _⟩ : Fin 100000) (j 1)))
      = fun (j : Cert.KernelIdeal.S16384x128.Idx) => ft (ValueIdx.ix2 (⟨(fi (ValueIdx.ix1 (j 0))).toNat, h _⟩ : Fin 100000) (j 1)) := by
  subst ei et; rfl

theorem frame_p : Cert.frame_Kernel := fun m ρ hpre =>
  (θ_run Cert.Kernel.defs _ _).mono (fun _ h c => (h c).2) (BitsGather.run_main (F := Bits) m ρ (ok_bits m hpre))

theorem frame_pi : Cert.frame_KernelIdeal := fun m ρ hpre =>
  (θ_run Cert.KernelIdeal.defs _ _).mono (fun _ h c => (h c).2) (IdealGather.run_main (F := Ideal) m ρ (ok_ideal m hpre))

theorem frame_ri : Cert.frame_ReferenceIdeal := fun m ρ hpre =>
  (θ_run Cert.ReferenceIdeal.defs _ _).mono (fun _ h c => (h c).2) (RefGather.run m ρ (ok_ref m hpre))

/-- The two idealized programs end with the same result: the table's rows the list names. -/
theorem algebraic : Cert.algebraic_KernelIdeal_ReferenceIdeal := by
  intro m ρ m' ρ' hpre hagree
  have hok := ok_ideal m hpre
  have hok' : ∀ (c : Dev Cert.ReferenceIdeal.nD) (j : Cert.ReferenceIdeal.S16384.Idx),
      (m' ((c.tc : Thread Cert.ReferenceIdeal.nD Cert.ReferenceIdeal.τ).loc Cert.ReferenceIdeal.main_arg0) j).toNat < 100000 := by
    intro c j; rw [(hagree c).1]; exact hok c j
  refine ⟨fun c => IdealGather.gathered m hok c, IdealGather.run_main (F := Ideal) m ρ hok, ?_⟩
  refine (θ_run Cert.ReferenceIdeal.defs _ _).mono (fun _ h c => ⟨(h c).1.trans ?_, (h c).2⟩) (RefGather.run m' ρ' hok')
  exact gather_congr (hok c) (hok' c) (hagree c).1 (hagree c).2

theorem claim : Cert.Claim :=
  ⟨Cert.Kernel.Gen.facts, Cert.KernelIdeal.Gen.facts, Cert.ReferenceIdeal.Gen.facts, Cert.Pre_input_domain.Gen.facts,
    frame_p, frame_pi, frame_ri, trivial, algebraic⟩

end Cert.Proof

end
